-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S16 .f32) (main_arg7 : FVec F S32x10 .f32) (main_arg8 : FVec F S10 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x10 .f32 := Host.absf main_arg7
  let main_cst_8 : FVec F S_ .f32 := constant S_ .f32 0x7F800000#32
  let main_v25 : FVec F S32x10 .f32 := broadcastInDim S32x10 ![] bcast_S_S32x10 main_cst_8
  let main_v26 : IVec S32x10 1 := cmpf .olt main_v24 main_v25
  let main_c_9 : IVec S_ 1 := constantI S_ 1 1#1
  let main_v27 : IVec S_ 1 := (fun x v => Host.reduce IntOp.andi x v reducesTo_S32x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : IVec S2x3200000 32) (main_arg3 : FVec F S128x16 .f32) (main_arg4 : FVec F S16 .f32) (main_arg5 : FVec F S128x16 .f32) (main_arg6 : FVec F S16 .f32) (main_arg7 : FVec F S32x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg6 main_arg7 main_arg8 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S32x10 : Shape := ⟨2, ![32, 10]⟩
abbrev S10 : Shape := ⟨1, ![10]⟩
abbrev S128x32 : Shape := ⟨2, ![128, 32]⟩
abbrev S100000x32 : Shape := ⟨2, ![100000, 32]⟩
abbrev S10000x128 : Shape := ⟨2, ![10000, 128]⟩
abbrev S10000x32 : Shape := ⟨2, ![10000, 32]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S16x10 : Shape := ⟨2, ![16, 10]⟩
abbrev S100000x10 : Shape := ⟨2, ![100000, 10]⟩
abbrev S10000x16 : Shape := ⟨2, ![10000, 16]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 148
  | .vmem => 20
  | .smem => 0
  | _ => 0

abbrev hbmTy0_0 (i : Nat) : BufTy := match i % 128 with
  | 0 => ⟨S100000x128, .f32⟩
  | 1 => ⟨S2x3200000, .i32⟩
  | 2 => ⟨S2x3200000, .i32⟩
  | 3 => ⟨S128x16, .f32⟩
  | 4 => ⟨S16, .f32⟩
  | 5 => ⟨S128x16, .f32⟩
  | 6 => ⟨S16, .f32⟩
  | 7 => ⟨S32x10, .f32⟩
  | 8 => ⟨S10, .f32⟩
  | 9 => ⟨S128x32, .f32⟩
  | 10 => ⟨S100000x32, .f32⟩
  | 11 => ⟨S100000x16, .f32⟩
  | 12 => ⟨S100000x16, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000, .i32⟩
  | 54 => ⟨S1x3200000, .i32⟩
  | 55 => ⟨S3200000, .i32⟩
  | 56 => ⟨S3300000, .i32⟩
  | 57 => ⟨S1x3200000, .i32⟩
  | 58 => ⟨S3200000, .i32⟩
  | 59 => ⟨S3300000, .i32⟩
  | 60 => ⟨S_, .f32⟩
  | 61 => ⟨S3300000, .f32⟩
  | 62 => ⟨S_, .f32⟩
  | 63 => ⟨S100000, .f32⟩
  | 64 => ⟨S3300000x1, .i32⟩
  | 65 => ⟨S100000, .f32⟩
  | 66 => ⟨S_, .f32⟩
  | 67 => ⟨S100000, .f32⟩
  | 68 => ⟨S100000, .i1⟩
  | 69 => ⟨S100000, .f32⟩
  | 70 => ⟨S_, .f32⟩
  | 71 => ⟨S_, .f32⟩
  | 72 => ⟨S100000, .f32⟩
  | 73 => ⟨S100000, .f32⟩
  | 74 => ⟨S_, .i32⟩
  | 75 => ⟨S3300000, .i32⟩
  | 76 => ⟨S3300000, .i1⟩
  | 77 => ⟨S_, .i32⟩
  | 78 => ⟨S3300000, .i32⟩
  | 79 => ⟨S3300000, .i32⟩
  | 80 => ⟨S3300000, .i32⟩
  | 81 => ⟨S3300000x1, .i32⟩
  | 82 => ⟨S3300000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000x16, .f32⟩
  | 102 => ⟨S3300000x1, .f32⟩
  | 103 => ⟨S3300000x16, .f32⟩
  | 104 => ⟨S3300000x16, .f32⟩
  | 105 => ⟨S_, .f32⟩
  | 106 => ⟨S100000x16, .f32⟩
  | 107 => ⟨S3300000x1, .i32⟩
  | 108 => ⟨S100000x16, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x16, .f32⟩
  | 118 => ⟨S3300000x1, .f32⟩
  | 119 => ⟨S3300000x16, .f32⟩
  | 120 => ⟨S3300000x16, .f32⟩
  | 121 => ⟨S_, .f32⟩
  | 122 => ⟨S100000x16, .f32⟩
  | 123 => ⟨S3300000x1, .i32⟩
  | 124 => ⟨S100000x16, .f32⟩
  | 125 => ⟨S1x16, .f32⟩
  | 126 => ⟨S1x16, .f32⟩
  | 127 => ⟨S16x10, .f32⟩
  | _ => ⟨S100000x128, .f32⟩

abbrev hbmTy0_1 (i : Nat) : BufTy := match i % 128 with
  | 0 => ⟨S16x10, .f32⟩
  | 1 => ⟨S100000x10, .f32⟩
  | 2 => ⟨S_, .i32⟩
  | 3 => ⟨S3300000, .i32⟩
  | 4 => ⟨S3300000, .i1⟩
  | 5 => ⟨S_, .i32⟩
  | 6 => ⟨S3300000, .i32⟩
  | 7 => ⟨S3300000, .i32⟩
  | 8 => ⟨S3300000, .i32⟩
  | 9 => ⟨S3300000x1, .i32⟩
  | 10 => ⟨S3300000x10, .f32⟩
  | 11 => ⟨S3300000x1, .f32⟩
  | 12 => ⟨S3300000x10, .f32⟩
  | 13 => ⟨S3300000x10, .f32⟩
  | 14 => ⟨S_, .f32⟩
  | 15 => ⟨S100000x10, .f32⟩
  | 16 => ⟨S3300000x1, .i32⟩
  | 17 => ⟨S100000x10, .f32⟩
  | 18 => ⟨S1x10, .f32⟩
  | 19 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S1x16, .f32⟩
  | .local _ .vmem, ⟨10, _⟩ => ⟨S1x16, .f32⟩
  | .local _ .vmem, ⟨11, _⟩ => ⟨S16x10, .f32⟩
  | .local _ .vmem, ⟨12, _⟩ => ⟨S16x10, .f32⟩
  | .local _ .vmem, ⟨13, _⟩ => ⟨S10000x10, .f32⟩
  | .local _ .vmem, ⟨14, _⟩ => ⟨S10000x10, .f32⟩
  | .local _ .vmem, ⟨15, _⟩ => ⟨S10000x10, .f32⟩
  | .local _ .vmem, ⟨16, _⟩ => ⟨S10000x10, .f32⟩
  | .local _ .vmem, ⟨17, _⟩ => ⟨S1x10, .f32⟩
  | .local _ .vmem, ⟨18, _⟩ => ⟨S10000x10, .f32⟩
  | .local _ .vmem, ⟨19, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_20 : Ref sig .tc := ⟨.hbm, 130, rfl⟩
abbrev main_v95 : Ref sig .tc := ⟨.hbm, 131, rfl⟩
abbrev main_v96 : Ref sig .tc := ⟨.hbm, 132, rfl⟩
abbrev main_c_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_22 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  concatenates_S128x16_S128x16_S128x32_d1 : Shape.Concatenates [S128x16, S128x16] S128x32 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S10000x32_S10000x32_0_0 : ∀ a, (![0, 0] : Fin 2 → Nat) a + S10000x32.size a ≤ S10000x32.size a
  h_S10000x32 : 0 < S10000x32.numel
  slices_S100000x32_S100000x16_0_0 : S100000x32.Slices ![0, 0] S100000x16
  slices_S100000x32_S100000x16_0_16 : S100000x32.Slices ![0, 16] S100000x16
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  slices_S32x10_S16x10_0_0 : S32x10.Slices ![0, 0] S16x10
  slices_S32x10_S16x10_16_0 : S32x10.Slices ![16, 0] S16x10
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x10_S16x10_0_0 : ∀ a, (![0, 0] : Fin 2 → Nat) a + S16x10.size a ≤ S16x10.size a
  h_S16x10 : 0 < S16x10.numel
  shapeCasts_S16x10_S16x10 : S16x10.ShapeCasts S16x10
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  dot_S10000x128_S128x32_S10000x32_1_0_0_1_n_n_wf : DotDims.WF S10000x128 S128x32 S10000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x10.size a ≤ S16x10.size a
  hwx1_4 : ∀ i : grid1.Coords, EltTy.bits .f32 = 32 ∨ (Rect.block (s := S16x10) S16x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x10.size a ≤ S16x10.size a
  hwx1_5 : ∀ i : grid1.Coords, EltTy.bits .f32 = 32 ∨ (Rect.block (s := S16x10) S16x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x10.size a ≤ S100000x10.size a
  hwx1_6 : ∀ i : grid1.Coords, EltTy.bits .f32 = 32 ∨ (Rect.block (s := S100000x10) S10000x10.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x10.size a ≤ S100000x10.size a
  hwx2_2 : ∀ i : grid2.Coords, EltTy.bits .f32 = 32 ∨ (Rect.block (s := S100000x10) S10000x10.size (cc2_transform_2 i) (hinb2_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v76) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v90) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v91) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v92) S16x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v93) S16x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v94) S10000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v107) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v108) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v109) S10000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S32x10 : Shape := ⟨2, ![32, 10]⟩
abbrev S10 : Shape := ⟨1, ![10]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x32 : Shape := ⟨2, ![100000, 32]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S2x3200000, .i32⟩
  | 2 => ⟨S2x3200000, .i32⟩
  | 3 => ⟨S128x16, .f32⟩
  | 4 => ⟨S16, .f32⟩
  | 5 => ⟨S128x16, .f32⟩
  | 6 => ⟨S16, .f32⟩
  | 7 => ⟨S32x10, .f32⟩
  | 8 => ⟨S10, .f32⟩
  | 9 => ⟨S100000x16, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x16, .f32⟩
  | 73 => ⟨S100000, .i32⟩
  | 74 => ⟨S1x3200000, .i32⟩
  | 75 => ⟨S3200000, .i32⟩
  | 76 => ⟨S3300000, .i32⟩
  | 77 => ⟨S1x3200000, .i32⟩
  | 78 => ⟨S3200000, .i32⟩
  | 79 => ⟨S3300000, .i32⟩
  | 80 => ⟨S_, .f32⟩
  | 81 => ⟨S3300000, .f32⟩
  | 82 => ⟨S_, .f32⟩
  | 83 => ⟨S100000, .f32⟩
  | 84 => ⟨S3300000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000, .f32⟩
  | 112 => ⟨S3300000, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x16, .f32⟩
  | 122 => ⟨S3300000x1, .f32⟩
  | 123 => ⟨S3300000x16, .f32⟩
  | 124 => ⟨S3300000x16, .f32⟩
  | 125 => ⟨S_, .f32⟩
  | 126 => ⟨S100000x16, .f32⟩
  | 127 => ⟨S3300000x1, .i32⟩
  | _ => ⟨S100000x128, .f32⟩

abbrev hbmTy0_1 (i : Nat) : BufTy := match i % 128 with
  | 0 => ⟨S100000x16, .f32⟩
  | 1 => ⟨S1x16, .f32⟩
  | 2 => ⟨S100000x16, .f32⟩
  | 3 => ⟨S100000x16, .f32⟩
  | 4 => ⟨S_, .f32⟩
  | 5 => ⟨S100000x16, .f32⟩
  | 6 => ⟨S100000x16, .f32⟩
  | 7 => ⟨S100000x32, .f32⟩
  | 8 => ⟨S100000x10, .f32⟩
  | 9 => ⟨S100000, .i32⟩
  | 10 => ⟨S1x3200000, .i32⟩
  | 11 => ⟨S3200000, .i32⟩
  | 12 => ⟨S3300000, .i32⟩
  | 13 => ⟨S1x3200000, .i32⟩
  | 14 => ⟨S3200000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x10, .f32⟩
  | 58 => ⟨S3300000x1, .f32⟩
  | 59 => ⟨S3300000x10, .f32⟩
  | 60 => ⟨S3300000x10, .f32⟩
  | 61 => ⟨S_, .f32⟩
  | 62 => ⟨S100000x10, .f32⟩
  | 63 => ⟨S3300000x1, .i32⟩
  | 64 => ⟨S100000x10, .f32⟩
  | 65 => ⟨S1x10, .f32⟩
  | 66 => ⟨S100000x10, .f32⟩
  | 67 => ⟨S100000x10, .f32⟩
  | 68 => ⟨S_, .f32⟩
  | 69 => ⟨S100000, .f32⟩
  | 70 => ⟨S_, .f32⟩
  | 71 => ⟨S100000, .f32⟩
  | 72 => ⟨S100000, .f32⟩
  | 73 => ⟨S100000x1, .f32⟩
  | 74 => ⟨S100000x10, .f32⟩
  | 75 => ⟨S100000x10, .f32⟩
  | 76 => ⟨S100000x10, .f32⟩
  | 77 => ⟨S_, .f32⟩
  | 78 => ⟨S100000, .f32⟩
  | 79 => ⟨S100000x1, .f32⟩
  | 80 => ⟨S100000x1, .f32⟩
  | 81 => ⟨S100000x10, .f32⟩
  | 82 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_20 : Ref sig .tc := ⟨.hbm, 144, rfl⟩
abbrev main_v105 : Ref sig .tc := ⟨.hbm, 145, rfl⟩
abbrev main_cst_21 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_22 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_23 : Ref sig .tc := ⟨.hbm, 154, rfl⟩
abbrev main_call4_v0 : Ref sig .tc := ⟨.hbm, 155, rfl⟩
abbrev main_call4_v1 : Ref sig .tc := ⟨.hbm, 156, rfl⟩
abbrev main_v112 : Ref sig .tc := ⟨.hbm, 157, rfl⟩
abbrev main_c_24 : Ref sig .tc := ⟨.hbm, 158, rfl⟩
abbrev main_v113 : Ref sig .tc := ⟨.hbm, 159, rfl⟩
abbrev main_v114 : Ref sig .tc := ⟨.hbm, 160, rfl⟩
abbrev main_c_25 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_26 : Ref sig .tc := ⟨.hbm, 167, rfl⟩
abbrev main_v120 : Ref sig .tc := ⟨.hbm, 168, rfl⟩
abbrev main_v121 : Ref sig .tc := ⟨.hbm, 169, rfl⟩
abbrev main_c_27 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_c_28 : Ref sig .tc := ⟨.hbm, 177, rfl⟩
abbrev main_v128 : Ref sig .tc := ⟨.hbm, 178, rfl⟩
abbrev main_v129 : Ref sig .tc := ⟨.hbm, 179, rfl⟩
abbrev main_c_29 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_30 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_call5_cst : Ref sig .tc := ⟨.hbm, 196, rfl⟩
abbrev main_call5_v0 : Ref sig .tc := ⟨.hbm, 197, rfl⟩
abbrev main_call5_cst_0 : Ref sig .tc := ⟨.hbm, 198, rfl⟩
abbrev main_call5_v1 : Ref sig .tc := ⟨.hbm, 199, rfl⟩
abbrev main_call5_v2 : Ref sig .tc := ⟨.hbm, 200, rfl⟩
abbrev main_call5_v3 : Ref sig .tc := ⟨.hbm, 201, rfl⟩
abbrev main_call5_v4 : Ref sig .tc := ⟨.hbm, 202, rfl⟩
abbrev main_call5_v5 : Ref sig .tc := ⟨.hbm, 203, rfl⟩
abbrev main_call5_v6 : Ref sig .tc := ⟨.hbm, 204, rfl⟩
abbrev main_call5_cst_1 : Ref sig .tc := ⟨.hbm, 205, rfl⟩
abbrev main_call5_v7 : Ref sig .tc := ⟨.hbm, 206, rfl⟩
abbrev main_call5_v8 : Ref sig .tc := ⟨.hbm, 207, rfl⟩
abbrev main_call5_v9 : Ref sig .tc := ⟨.hbm, 208, rfl⟩
abbrev main_call5_v10 : Ref sig .tc := ⟨.hbm, 209, rfl⟩
abbrev main_v144 : Ref sig .tc := ⟨.hbm, 210, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x16_S100000x16_S100000x32_d1 : Shape.Concatenates [S100000x16, S100000x16] S100000x32 1
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x32_S32x10_S100000x10_1_0_0_1_n_n_wf : DotDims.WF S100000x32 S32x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x32_S32x10_S100000x10_1_0_0_1_n_n : DotDims S100000x32 S32x10 S100000x10 where
  lhsContracting := [1]
  rhsContracting := [0]
  lhsNonContracting := [0]
  rhsNonContracting := [1]
  lhsBatch := []
  rhsBatch := []
  wf := dot_S100000x32_S32x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its result named.

  The program is three pipelined regions between stretches of host operations.  Its buffers at every boundary are a
  fold from the launch memory; the last boundary's contents are `W10`.  Every weakly fair execution terminates without a
  fault, the result buffer holds `W10` at the result's reference, and the nine argument arrays are as launched.
-/
import proofs.«131783_j75625784148568_1_alg».proof.Defs
import proofs.«131783_j75625784148568_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the ten segments of the program, read at the result buffer and at the arguments: the final state's
    unscoped buffers are the last boundary's contents. -/
theorem run_named : θ_run defs (onTc (τ := τ) (main (F := F))) ⟨m, fun _ => 0, ρ⟩ (fun r => ∀ c : Dev nD,
      r.2.mem ((c.tc : Thread nD τ).loc main_v109) = W10 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v109 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Hand

end
-- ==== Proof.GraphOps.lean ====
/-
  The graph side of a normalised-adjacency aggregation, as whole-array functions of an edge list.

  An edge list is an int32 array [2, E] (row 0 the sources, row 1 the targets), E = 3200000, over N = 100000 nodes.
  `ends0` / `ends1` append the N self-loops `0 … N-1` to a row.  `deg d` counts, for every node, the entries of `d` equal to
  it (a scatter-add of ones into zeros); `dinv d` is `deg^(-1/2)` where the degree is positive and 0 elsewhere; the weight
  of edge `k` is `dinv[src k] · dinv[dst k]` (`norm`), a negative index counted from the end (`wrap`).  `agg16` and `agg10` take
  a node array `xw` and return, at node `d`, the sum over the edges into `d` of `norm k · xw[src k]`: a row gather, a
  product with the weights broadcast over the columns, and a scatter-add into zeros.

  Both programs of the certificate apply these same operations, so they are carried as opaque functions: only their
  arguments are ever compared.
-/
import proofs.«131783_j75625784148568_1_alg».proof.KernelIdeal

noncomputable section

namespace Cert.Graph

open Idealize.ShloMosaic Cert.KernelIdeal Cert.KernelIdeal.Facts₀

variable {F : FTy → Type} [FloatOps F] [Cert.KernelIdeal.Facts₀]

/-- An int32 vector of 3200000 entries followed by one of 100000. -/
def joinI (a : (⟨S3200000, .i32⟩ : BufTy).Contents (Elt F)) (b : (⟨S100000, .i32⟩ : BufTy).Contents (Elt F)) :
    (⟨S3300000, .i32⟩ : BufTy).Contents (Elt F) :=
  concatenate S3300000 0 [⟨S3200000, a⟩, ⟨S100000, b⟩] concatenates_S3200000_S100000_S3300000_d0

/-- Row 0 of the edge list, then the self-loops. -/
def ends0 (e : (⟨S2x3200000, .i32⟩ : BufTy).Contents (Elt F)) : (⟨S3300000, .i32⟩ : BufTy).Contents (Elt F) :=
  joinI (shapeCast S3200000 (extractStridedSlice S1x3200000 ![0, 0] e slices_S2x3200000_S1x3200000_0_0) shapeCasts_S1x3200000_S3200000)
    (iotaInDim S100000 32 0)

/-- Row 1 of the edge list, then the self-loops. -/
def ends1 (e : (⟨S2x3200000, .i32⟩ : BufTy).Contents (Elt F)) : (⟨S3300000, .i32⟩ : BufTy).Contents (Elt F) :=
  joinI (shapeCast S3200000 (extractStridedSlice S1x3200000 ![1, 0] e slices_S2x3200000_S1x3200000_1_0) shapeCasts_S1x3200000_S3200000)
    (iotaInDim S100000 32 0)

/-- A negative index counted from the end: `v < 0 ? v + N : v`. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The degree: ones scattered onto zeros at the indices `d`. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- `deg^(-1/2)` where the degree is positive, the word `z` broadcast elsewhere. -/
def dinv (d : (⟨S3300000, .i32⟩ : BufTy).Contents (Elt F)) (z : (⟨S100000, .f32⟩ : BufTy).Contents (Elt F)) :
    (⟨S100000, .f32⟩ : BufTy).Contents (Elt F) :=
  select (cmpf .ogt (deg d) (broadcastInDim S100000 ![] bcast_S_S100000 (constant S_ .f32 0x00000000#32))) (Host.rsqrt (deg d)) z

/-- The edge weights `dinv[src] · dinv[dst]`. -/
def norm (s d : (⟨S3300000, .i32⟩ : BufTy).Contents (Elt F)) (z : (⟨S100000, .f32⟩ : BufTy).Contents (Elt F)) :
    (⟨S3300000, .f32⟩ : BufTy).Contents (Elt F) :=
  mulf (Host.gather gather_S100000_S3300000x1_S3300000_n_0_n_n_0_1_1 (dinv d z) (broadcastInDim S3300000x1 ![0] bcast_S3300000_S3300000x1_0 (wrap s)))
    (Host.gather gather_S100000_S3300000x1_S3300000_n_0_n_n_0_1_1 (dinv d z) (broadcastInDim S3300000x1 ![0] bcast_S3300000_S3300000x1_0 (wrap d)))

/-- The aggregation of a 16-column node array with the weights `w` along the edges `s → d`. -/
def agg16 (s d : (⟨S3300000, .i32⟩ : BufTy).Contents (Elt F)) (w : (⟨S3300000, .f32⟩ : BufTy).Contents (Elt F))
    (xw : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 d)
    (mulf (Host.gather gather_S100000x16_S3300000x1_S3300000x16_1_0_n_n_0_1_116 xw (broadcastInDim S3300000x1 ![0] bcast_S3300000_S3300000x1_0 (wrap s)))
      (broadcastInDim S3300000x16 ![0, 1] bcast_S3300000x1_S3300000x16_0_1 (broadcastInDim S3300000x1 ![0] bcast_S3300000_S3300000x1_0 w)))

/-- The same for a 10-column node array. -/
def agg10 (s d : (⟨S3300000, .i32⟩ : BufTy).Contents (Elt F)) (w : (⟨S3300000, .f32⟩ : BufTy).Contents (Elt F))
    (xw : (⟨S100000x10, .f32⟩ : BufTy).Contents (Elt F)) : (⟨S100000x10, .f32⟩ : BufTy).Contents (Elt F) :=
  Host.scatterAdd scatter_S100000x10_S3300000x1_S3300000x10_1_0_0_1
    (broadcastInDim S100000x10 ![] bcast_S_S100000x10 (constant S_ .f32 0x00000000#32))
    (broadcastInDim S3300000x1 ![0] bcast_S3300000_S3300000x1_0 d)
    (mulf (Host.gather gather_S100000x10_S3300000x1_S3300000x10_1_0_n_n_0_1_110 xw (broadcastInDim S3300000x1 ![0] bcast_S3300000_S3300000x1_0 (wrap s)))
      (broadcastInDim S3300000x10 ![0, 1] bcast_S3300000x1_S3300000x10_0_1 (broadcastInDim S3300000x1 ![0] bcast_S3300000_S3300000x1_0 w)))

end Cert.Graph

end
-- ==== Proof.KernelHost.lean ====
/-
  The idealized kernel's buffers at the boundaries of its three regions, as functions of the launch arrays.

  Between the regions the program runs host operations only; a buffer's contents at a boundary are the fold of those
  operations over the contents at the boundary before.  Read here, for every device:
  • region 0 (the product `x · [W1 | W2]`) enters with `x` and the two weight arrays joined along the columns;
  • region 1 enters with the two 16-column aggregations — over the first and over the second edge list — of the left
    and right halves of region 0's result, the two bias vectors as one-row arrays, and the top and bottom halves of `W4`;
  • region 2 enters with the 10-column aggregation over the first edge list of region 1's result and the last bias as a
    one-row array;
  • the result buffer is region 2's output array.
  The graph operations (self-loops, degrees, edge weights, gather, scatter-add) are the opaque functions of GraphOps.
-/
import proofs.«131783_j75625784148568_1_alg».proof.Proof.Gen.KernelIdeal.Frame
import proofs.«131783_j75625784148568_1_alg».proof.Proof.GraphOps
import Idealize.ShloMosaic.Lib.StableHlo.Run

set_option maxRecDepth 16384

noncomputable section

namespace Cert.KernelIdeal.Hand

open Cert.KernelIdeal Cert.KernelIdeal.Gen Cert.Graph
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- A two-operand join of int32 vectors is `joinI` of its operands: the operands become plain arguments. -/
theorem joinI_fold (a : (⟨S3200000, .i32⟩ : BufTy).Contents (Elt F)) (b : (⟨S100000, .i32⟩ : BufTy).Contents (Elt F)) :
    (concatenate S3300000 0 [⟨S3200000, a⟩, ⟨S100000, b⟩] concatenates_S3200000_S100000_S3300000_d0 : (⟨S3300000, .i32⟩ : BufTy).Contents (Elt F)) = joinI a b := rfl

/-- Evaluate a boundary's fold at a buffer: open the boundaries down to region 0's exit, name the joins, rewrite every
    operation's result. -/
local macro "fold_eval" : tactic => `(tactic| (
  dsimp only [W9, W7, W6, W5, W4, W3, W1]
  simp only [hostOps0, hostOps1, hostOps1_1, hostOps1_2, hostOps1_3, hostOps1_4, hostOps2, joinI_fold]
  after_results_simp))

/-! ## Region 0's entry -/

theorem V1_arg0 (c : Dev nD) : V1 m ρ c main_arg0 = m ((c : Thread nD τ).loc main_arg0) := by
  show W1 m ρ c (Proc.devRef .tc main_arg0) = _
  fold_eval <;> rfl

theorem V1_v0 (c : Dev nD) : V1 m ρ c main_v0
    = concatenate S128x32 1 [⟨S128x16, m ((c : Thread nD τ).loc main_arg3)⟩, ⟨S128x16, m ((c : Thread nD τ).loc main_arg5)⟩] concatenates_S128x16_S128x16_S128x32_d1 := by
  show W1 m ρ c (Proc.devRef .tc main_v0) = _
  fold_eval <;> rfl

/-! ## Region 0's exit: the arguments it does not touch, and its result -/

theorem W2_v1 (c : Dev nD) : W2 m ρ c (Proc.devRef .tc main_v1) = (dat0 (V1 m ρ) c).arrAt 2 cfg0.N := W2_arr m ρ c 2

theorem W2_arg1 (c : Dev nD) : W2 m ρ c (Proc.devRef .tc main_arg1) = m ((c : Thread nD τ).loc main_arg1) := by
  rw [W2_of_ne m ρ c main_arg1 (by decide)]
  fold_eval <;> rfl
theorem W2_arg2 (c : Dev nD) : W2 m ρ c (Proc.devRef .tc main_arg2) = m ((c : Thread nD τ).loc main_arg2) := by
  rw [W2_of_ne m ρ c main_arg2 (by decide)]
  fold_eval <;> rfl
theorem W2_arg4 (c : Dev nD) : W2 m ρ c (Proc.devRef .tc main_arg4) = m ((c : Thread nD τ).loc main_arg4) := by
  rw [W2_of_ne m ρ c main_arg4 (by decide)]
  fold_eval <;> rfl
theorem W2_arg6 (c : Dev nD) : W2 m ρ c (Proc.devRef .tc main_arg6) = m ((c : Thread nD τ).loc main_arg6) := by
  rw [W2_of_ne m ρ c main_arg6 (by decide)]
  fold_eval <;> rfl
theorem W2_arg7 (c : Dev nD) : W2 m ρ c (Proc.devRef .tc main_arg7) = m ((c : Thread nD τ).loc main_arg7) := by
  rw [W2_of_ne m ρ c main_arg7 (by decide)]
  fold_eval <;> rfl
theorem W2_arg8 (c : Dev nD) : W2 m ρ c (Proc.devRef .tc main_arg8) = m ((c : Thread nD τ).loc main_arg8) := by
  rw [W2_of_ne m ρ c main_arg8 (by decide)]
  fold_eval <;> rfl

/-! ## Region 1's entry -/

/-- The first edge list's aggregation of the left half of region 0's result. -/
theorem V7_v76 (c : Dev nD) : V7 m ρ c main_v76
    = agg16 (ends0 (m ((c : Thread nD τ).loc main_arg1))) (ends1 (m ((c : Thread nD τ).loc main_arg1))) (norm (ends0 (m ((c : Thread nD τ).loc main_arg1))) (ends1 (m ((c : Thread nD τ).loc main_arg1))) (broadcastInDim S100000 ![] bcast_S_S100000 (constant S_ .f32 0x00000000#32)))
        (extractStridedSlice S100000x16 ![0, 0] (W2 m ρ c (Proc.devRef .tc main_v1)) slices_S100000x32_S100000x16_0_0) := by
  rw [← W2_arg1 m ρ c]
  show W7 m ρ c (Proc.devRef .tc main_v76) = _
  fold_eval <;> rfl

/-- The second edge list's aggregation of the right half of region 0's result. -/
theorem V7_v89 (c : Dev nD) : V7 m ρ c main_v89
    = agg16 (ends0 (m ((c : Thread nD τ).loc main_arg2))) (ends1 (m ((c : Thread nD τ).loc main_arg2))) (norm (ends0 (m ((c : Thread nD τ).loc main_arg2))) (ends1 (m ((c : Thread nD τ).loc main_arg2))) (broadcastInDim S100000 ![] bcast_S_S100000 (constant S_ .f32 0x00000000#32)))
        (extractStridedSlice S100000x16 ![0, 16] (W2 m ρ c (Proc.devRef .tc main_v1)) slices_S100000x32_S100000x16_0_16) := by
  rw [← W2_arg2 m ρ c]
  show W7 m ρ c (Proc.devRef .tc main_v89) = _
  fold_eval <;> rfl

theorem V7_v90 (c : Dev nD) : V7 m ρ c main_v90 = shapeCast S1x16 (m ((c : Thread nD τ).loc main_arg4)) shapeCasts_S16_S1x16 := by
  rw [← W2_arg4 m ρ c]
  show W7 m ρ c (Proc.devRef .tc main_v90) = _
  fold_eval <;> rfl

theorem V7_v91 (c : Dev nD) : V7 m ρ c main_v91 = shapeCast S1x16 (m ((c : Thread nD τ).loc main_arg6)) shapeCasts_S16_S1x16 := by
  rw [← W2_arg6 m ρ c]
  show W7 m ρ c (Proc.devRef .tc main_v91) = _
  fold_eval <;> rfl

theorem V7_v92 (c : Dev nD) : V7 m ρ c main_v92 = extractStridedSlice S16x10 ![0, 0] (m ((c : Thread nD τ).loc main_arg7)) slices_S32x10_S16x10_0_0 := by
  rw [← W2_arg7 m ρ c]
  show W7 m ρ c (Proc.devRef .tc main_v92) = _
  fold_eval <;> rfl

theorem V7_v93 (c : Dev nD) : V7 m ρ c main_v93 = extractStridedSlice S16x10 ![16, 0] (m ((c : Thread nD τ).loc main_arg7)) slices_S32x10_S16x10_16_0 := by
  rw [← W2_arg7 m ρ c]
  show W7 m ρ c (Proc.devRef .tc main_v93) = _
  fold_eval <;> rfl

/-! ## Region 1's exit: what region 2's stretch still reads of the first edge list, and region 1's result -/

theorem W8_v94 (c : Dev nD) : W8 m ρ c (Proc.devRef .tc main_v94) = (dat1 (V7 m ρ) c).arrAt 6 cfg1.N := W8_arr m ρ c 6

theorem W8_v7 (c : Dev nD) : W8 m ρ c (Proc.devRef .tc main_v7) = ends0 (m ((c : Thread nD τ).loc main_arg1)) := by
  rw [W8_of_ne m ρ c main_v7 (by decide), ← W2_arg1 m ρ c]
  fold_eval <;> rfl

theorem W8_v10 (c : Dev nD) : W8 m ρ c (Proc.devRef .tc main_v10) = ends1 (m ((c : Thread nD τ).loc main_arg1)) := by
  rw [W8_of_ne m ρ c main_v10 (by decide), ← W2_arg1 m ρ c]
  fold_eval <;> rfl

theorem W8_v33 (c : Dev nD) : W8 m ρ c (Proc.devRef .tc main_v33) = (norm (ends0 (m ((c : Thread nD τ).loc main_arg1))) (ends1 (m ((c : Thread nD τ).loc main_arg1))) (broadcastInDim S100000 ![] bcast_S_S100000 (constant S_ .f32 0x00000000#32))) := by
  rw [W8_of_ne m ρ c main_v33 (by decide), ← W2_arg1 m ρ c]
  fold_eval <;> rfl

theorem W8_arg8 (c : Dev nD) : W8 m ρ c (Proc.devRef .tc main_arg8) = m ((c : Thread nD τ).loc main_arg8) := by
  rw [W8_of_ne m ρ c main_arg8 (by decide), ← W2_arg8 m ρ c]
  fold_eval <;> rfl

/-! ## Region 2's entry, and the result -/

/-- The first edge list's aggregation of region 1's result. -/
theorem V9_v107 (c : Dev nD) : V9 m ρ c main_v107
    = agg10 (ends0 (m ((c : Thread nD τ).loc main_arg1))) (ends1 (m ((c : Thread nD τ).loc main_arg1))) (norm (ends0 (m ((c : Thread nD τ).loc main_arg1))) (ends1 (m ((c : Thread nD τ).loc main_arg1))) (broadcastInDim S100000 ![] bcast_S_S100000 (constant S_ .f32 0x00000000#32))) (W8 m ρ c (Proc.devRef .tc main_v94)) := by
  rw [← W8_v33 m ρ c, ← W8_v7 m ρ c, ← W8_v10 m ρ c]
  show W9 m ρ c (Proc.devRef .tc main_v107) = _
  fold_eval <;> rfl

theorem V9_v108 (c : Dev nD) : V9 m ρ c main_v108 = shapeCast S1x10 (m ((c : Thread nD τ).loc main_arg8)) shapeCasts_S10_S1x10 := by
  rw [← W8_arg8 m ρ c]
  show W9 m ρ c (Proc.devRef .tc main_v108) = _
  fold_eval <;> rfl

theorem W10_v109 (c : Dev nD) : W10 m ρ c (Proc.devRef .tc main_v109) = (dat2 (V9 m ρ) c).arrAt 2 cfg2.N := W10_arr m ρ c 2

end Cert.KernelIdeal.Hand

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«131783_j75625784148568_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«131783_j75625784148568_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«131783_j75625784148568_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.Region0.lean ====
/-
  Region 0 of the idealized kernel as one whole-array function: the matrix product.

  The region's grid is ten points; point `t` stages rows `10000 t … 10000 t + 9999` of the left operand [100000, 128],
  the whole right operand [128, 32], and writes back rows `10000 t …` of the result [100000, 32].  The body stores the
  product of its two blocks.  Row `p` of a product depends on row `p` of the left operand only, so what point `t` writes
  back is block `t` of the product of the whole arrays, and the ten blocks tile the result: the result array ends at the
  product `∑ k, A (r, k) · W (k, c)` of the arrays the region found.
-/
import proofs.«131783_j75625784148568_1_alg».proof.Proof.Gen.KernelIdeal.Frame
import proofs.«131783_j75625784148568_1_alg».proof.Proof.LibRegionRows
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.RegionValue (prodArr prodArr_apply block_prod off2_zero)

variable (V : (c : Dev nD) → (b : Ref sig .tc) → Buf (Elt Ideal) ((c : Thread nD τ).loc b))

/-- The body's stored value at an index of the output block: the block product, which is the whole product `off` rows
    down when the left block is the left array read `off` rows down and the right block is the right array. -/
theorem pay0_block (x0 : Vec Ideal S10000x128 .f32) (x1 : Vec Ideal S128x32 .f32)
    (A : S100000x128.Idx → EReal) (W : S128x32.Idx → EReal) (off : ℕ)
    (y : S10000x32.Idx) (i : S100000x32.Idx) (hi0 : (i 0).val = off + (y 0).val) (hi1 : (i 1).val = (y 1).val)
    (hA : ∀ (u : S10000x128.Idx) (z : S100000x128.Idx), (z 0).val = off + (u 0).val → (z 1).val = (u 1).val → (x0 u : EReal) = A z)
    (hW : ∀ u : S128x32.Idx, (x1 u : EReal) = W u) :
    (k0_pay1 (F := Ideal) x0 x1 y : EReal) = prodArr A W i := by
  unfold k0_pay1
  refine (block_prod (R := 10000) (R' := 100000) (K := 128) (N := 32) none _ _ A W off y i hi0 hi1 ?_ ?_)
  · intro u z h0 h1; exact hA u z h0 h1
  · intro u
    show (shapeCast S128x32 x1 shapeCasts_S128x32_S128x32 u : EReal) = W u
    rw [shapeCast_self]; exact hW u

/-- Where the windows' blocks sit: the row-tiled windows at block row `t`, the right operand at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region found. -/
theorem flushed0 (c : Dev nD) (t : Fin cfg0.N) :
    (dat0 V c).flushed 2 t = ((cfg0.win 2).blk t).view.read (Elt Ideal) (prodArr (V c main_arg0) (V c main_v0)) := by
  show (cfg0.win 2).cut (grid0.coords t) ((dat0 V c).after 2 t) = _
  rw [after0_2]
  unfold out0_2
  rw [View.canon_unit_zero off2_zero]
  simp only [View.ld_unit_zero (S := S10000x128) off2_zero, View.ld_unit_zero (S := S128x32) off2_zero]
  obtain ⟨e00, e01, e10, e11, e20, e21⟩ := idx0 t
  funext j
  refine pay0_block (iblk0 V c 0 t) (iblk0 V c 1 t) (V c main_arg0) (V c main_v0) (t.val * 10000) j
    (((cfg0.win 2).blk t).view.emb j) ?_ ?_ ?_ ?_
  · show win0_2.index t (0 : Fin 2) * 10000 + 1 * (j 0).val = t.val * 10000 + (j 0).val
    rw [e20]; omega
  · show win0_2.index t (1 : Fin 2) * 32 + 1 * (j 1).val = (j 1).val
    rw [e21]; omega
  · intro u z h0 h1
    show V c main_arg0 (((cfg0.win 0).blk t).view.emb u) = V c main_arg0 z
    refine congrArg _ (funext fun a => Fin.ext ?_)
    match a with
    | ⟨0, _⟩ => show win0_0.index t (0 : Fin 2) * 10000 + 1 * (u 0).val = (z 0).val; rw [e00, h0]; omega
    | ⟨1, _⟩ => show win0_0.index t (1 : Fin 2) * 128 + 1 * (u 1).val = (z 1).val; rw [e01, h1]; omega
  · intro u
    show V c main_v0 (((cfg0.win 1).blk t).view.emb u) = V c main_v0 u
    refine congrArg _ (funext fun a => Fin.ext ?_)
    match a with
    | ⟨0, _⟩ => show win0_1.index t (0 : Fin 2) * 128 + 1 * (u 0).val = (u 0).val; rw [e10]; omega
    | ⟨1, _⟩ => show win0_1.index t (1 : Fin 2) * 32 + 1 * (u 1).val = (u 1).val; rw [e11]; omega

/-- An index of the result array is in point `t`'s block iff its row is in the block's rows. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v1).slice (win0_2.rect t)).set ↔ _
  rw [View.set_slice_whole, Rect.mem_set_unit]
  exact Iff.rfl

/-- The region's result array: the product of the arrays the region found. -/
theorem region0 (c : Dev nD) : (dat0 V c).arrAt 2 cfg0.N = prodArr (V c main_arg0) (V c main_v0) :=
  (dat0 V c).arrAt_eq_of_cover 2 (prodArr (V c main_arg0) (V c main_v0)) (fun t _ => flushed0 V c t) fun i => by
    have hi0 : (i 0).val < 100000 := (i 0).isLt
    have hi1 : (i 1).val < 32 := (i 1).isLt
    have hN : cfg0.N = 10 := N_0
    refine ⟨⟨(i 0).val / 10000, by rw [hN]; omega⟩, flush0_2 _, ?_⟩
    rw [mem_blk0]
    obtain ⟨-, -, -, -, e20, e21⟩ := idx0 ⟨(i 0).val / 10000, by rw [hN]; omega⟩
    intro a
    match a with
    | ⟨0, _⟩ =>
      show win0_2.index _ (0 : Fin 2) * 10000 ≤ (i 0).val ∧ (i 0).val < win0_2.index _ (0 : Fin 2) * 10000 + 10000
      rw [e20]; show (i 0).val / 10000 * 10000 ≤ (i 0).val ∧ (i 0).val < (i 0).val / 10000 * 10000 + 10000; omega
    | ⟨1, _⟩ =>
      show win0_2.index _ (1 : Fin 2) * 32 ≤ (i 1).val ∧ (i 1).val < win0_2.index _ (1 : Fin 2) * 32 + 32
      rw [e21]; omega

end Cert.KernelIdeal.Hand

end
-- ==== Proof.DenseSpec.lean ====
/-
  The dense stages of the network as whole-array functions over the extended reals, generic in every extent.

  • `hiddenArr z a b`: a bias row added to every row of `a`, then the rectifier at the level `z`: `max (a (r, k) + b (0, k)) z`.
  • `addRow a b`: a bias row added to every row, `a (r, c) + b (0, c)`.
  • `combineArr`: two hidden arrays, each multiplied by its own weight array, and the products added.  With the two weight
    arrays the top and bottom halves of one, this is the product of the two hidden arrays joined along the columns with
    the whole weight array (`sum_halves`: a sum over `A + B` terms is the sum of the first `A` plus the sum of the last `B`).
  • `lsmArr ninf y`: the log-softmax of every row of `y`, as jax spells it: with `M r = max ninf (max over c of y (r, c))` folded
    from `ninf`, `(y (r, c) − M r) − log (∑ c', exp (y (r, c') − M r))`.  Row `r` of the result depends on row `r` of `y` only.
  Nothing here needs an entry to be finite: only sums are split or compared term by term.
-/
import proofs.«131783_j75625784148568_1_alg».proof.Proof.LibRegionRows
import Idealize.ShloMosaic.PureOps.Ideal.Laws

noncomputable section

open scoped BigOperators

namespace Cert.Dense

open Idealize.ShloMosaic Idealize.ShloMosaic.ValueIdx
open Cert.KernelIdeal.RegionValue (prodArr prodArr_apply)

/-- A bias row added to every row, then the rectifier at level `z`. -/
def hiddenArr {R H : ℕ} (z : EReal) (a : (⟨2, ![R, H]⟩ : Shape).Idx → EReal) (b : (⟨2, ![1, H]⟩ : Shape).Idx → EReal) :
    (⟨2, ![R, H]⟩ : Shape).Idx → EReal :=
  fun i => max (a i + b (ix2 (0 : Fin 1) (i 1))) z

theorem hiddenArr_apply {R H : ℕ} (z : EReal) (a : (⟨2, ![R, H]⟩ : Shape).Idx → EReal) (b : (⟨2, ![1, H]⟩ : Shape).Idx → EReal)
    (p : Fin R) (k : Fin H) : hiddenArr z a b (ix2 p k) = max (a (ix2 p k) + b (ix2 (0 : Fin 1) k)) z := rfl

/-- A bias row added to every row. -/
def addRow {R C : ℕ} (a : (⟨2, ![R, C]⟩ : Shape).Idx → EReal) (b : (⟨2, ![1, C]⟩ : Shape).Idx → EReal) :
    (⟨2, ![R, C]⟩ : Shape).Idx → EReal :=
  fun i => a i + b (ix2 (0 : Fin 1) (i 1))

theorem addRow_apply {R C : ℕ} (a : (⟨2, ![R, C]⟩ : Shape).Idx → EReal) (b : (⟨2, ![1, C]⟩ : Shape).Idx → EReal)
    (p : Fin R) (c : Fin C) : addRow a b (ix2 p c) = a (ix2 p c) + b (ix2 (0 : Fin 1) c) := rfl

/-- Two hidden arrays, each times its own weights, added. -/
def combineArr {R H C : ℕ} (z : EReal) (a₁ a₂ : (⟨2, ![R, H]⟩ : Shape).Idx → EReal) (b₁ b₂ : (⟨2, ![1, H]⟩ : Shape).Idx → EReal)
    (w₁ w₂ : (⟨2, ![H, C]⟩ : Shape).Idx → EReal) : (⟨2, ![R, C]⟩ : Shape).Idx → EReal :=
  fun i => prodArr (hiddenArr z a₁ b₁) w₁ i + prodArr (hiddenArr z a₂ b₂) w₂ i

/-- A sum over `A + B` terms is the sum of the first `A` plus the sum of the last `B`. -/
theorem sum_halves {A B : ℕ} (f : Fin (A + B) → EReal) :
    ∑ k : Fin (A + B), f k = (∑ k : Fin A, f (Fin.castAdd B k)) + ∑ k : Fin B, f (Fin.natAdd A k) :=
  Fin.sum_univ_add f

/-- The row maximum as jax's log-softmax takes it: the fold of `max` from `ninf`, and `max` with `ninf` once more. -/
def rowMax {R C : ℕ} (ninf : EReal) (y : (⟨2, ![R, C]⟩ : Shape).Idx → EReal) (p : Fin R) : EReal :=
  max ninf ((Finset.univ : Finset (Fin C)).fold max ninf fun j => y (ix2 p j))

/-- The log-softmax of every row. -/
def lsmArr {R C : ℕ} (ninf : EReal) (y : (⟨2, ![R, C]⟩ : Shape).Idx → EReal) : (⟨2, ![R, C]⟩ : Shape).Idx → EReal :=
  fun i => (y i - rowMax ninf y (i 0)) - Ideal.log (∑ j : Fin C, Ideal.exp (y (ix2 (i 0) j) - rowMax ninf y (i 0)))

theorem lsmArr_apply {R C : ℕ} (ninf : EReal) (y : (⟨2, ![R, C]⟩ : Shape).Idx → EReal) (p : Fin R) (c : Fin C) :
    lsmArr ninf y (ix2 p c)
      = (y (ix2 p c) - rowMax ninf y p) - Ideal.log (∑ j : Fin C, Ideal.exp (y (ix2 p j) - rowMax ninf y p)) := rfl

/-- The row maximum of row `p` of `y` is that of row `p'` of `Y` when the two rows agree. -/
theorem rowMax_rows {R R' C : ℕ} (ninf : EReal) (y : (⟨2, ![R, C]⟩ : Shape).Idx → EReal) (Y : (⟨2, ![R', C]⟩ : Shape).Idx → EReal)
    (p : Fin R) (p' : Fin R') (h : ∀ j : Fin C, y (ix2 p j) = Y (ix2 p' j)) : rowMax ninf y p = rowMax ninf Y p' := by
  unfold rowMax
  rw [show (fun j => y (ix2 p j)) = fun j => Y (ix2 p' j) from funext h]

/-- Row `p` of the log-softmax of `y` is row `p'` of that of `Y` when the two rows agree. -/
theorem lsmArr_rows {R R' C : ℕ} (ninf : EReal) (y : (⟨2, ![R, C]⟩ : Shape).Idx → EReal) (Y : (⟨2, ![R', C]⟩ : Shape).Idx → EReal)
    (p : Fin R) (p' : Fin R') (h : ∀ j : Fin C, y (ix2 p j) = Y (ix2 p' j)) (c : Fin C) :
    lsmArr ninf y (ix2 p c) = lsmArr ninf Y (ix2 p' c) := by
  rw [lsmArr_apply, lsmArr_apply, rowMax_rows ninf y Y p p' h, h c]
  exact congrArg _ (congrArg Ideal.log (Finset.sum_congr rfl fun j _ => by rw [h j]))

end Cert.Dense

end
-- ==== Proof.Region1.lean ====
/-
  Region 1 of the idealized kernel as one whole-array function: bias, rectifier, two products, a sum.

  The region's grid is ten points; point `t` stages rows `10000 t … 10000 t + 9999` of the two aggregated arrays
  [100000, 16], the two bias rows [1, 16] and the two weight arrays [16, 10] whole, and writes back rows `10000 t …` of the
  result [100000, 10].  The body adds each bias row to its block, takes the maximum with zero, multiplies by its weights
  and adds the two products.  Every step is row by row, so what point `t` writes back is block `t` of the same function
  of the whole arrays, and the ten blocks tile the result.
-/
import proofs.«131783_j75625784148568_1_alg».proof.Proof.Gen.KernelIdeal.Frame
import proofs.«131783_j75625784148568_1_alg».proof.Proof.DenseSpec
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.Dense
open Idealize.ShloMosaic Idealize.ShloMosaic.TcCoe Idealize.ShloMosaic.ValueIdx Idealize.SL.Sem
open Idealize.ShloMosaic.Pipeline (Dat)
open Cert.KernelIdeal.RegionValue (prodArr prodArr_apply block_prod off2_zero)

variable (V : (c : Dev nD) → (b : Ref sig .tc) → Buf (Elt Ideal) ((c : Thread nD τ).loc b))

/-- A block's rectified, biased entry is the whole array's, `off` rows down. -/
theorem hidden_block (x : Vec Ideal S10000x16 .f32) (b : Vec Ideal S1x16 .f32) (A : S100000x16.Idx → EReal) (off : ℕ)
    (hA : ∀ (u : S10000x16.Idx) (z : S100000x16.Idx), (z 0).val = off + (u 0).val → (z 1).val = (u 1).val → (x u : EReal) = A z)
    (hs : S10000x16.ShapeCasts S10000x16) (hs' : S1x16.ShapeCasts S1x16) (hb : S1x16.Broadcasts S10000x16)
    (u : S10000x16.Idx) (z : S100000x16.Idx) (h0 : (z 0).val = off + (u 0).val) (h1 : (z 1).val = (u 1).val) :
    max ((shapeCast S10000x16 x hs u : EReal) + (broadcastTo S10000x16 (shapeCast S1x16 b hs') hb u : EReal)) (Ideal.ofBits .f32 0x00000000#32)
      = hiddenArr (Ideal.ofBits .f32 0x00000000#32) A b z := by
  obtain ⟨p, k, rfl⟩ : ∃ (p : Fin 10000) (k : Fin 16), u = ix2 p k := ⟨u 0, u 1, eq_ix2 u⟩
  obtain ⟨p', k', rfl⟩ : ∃ (p' : Fin 100000) (k' : Fin 16), z = ix2 p' k' := ⟨z 0, z 1, eq_ix2 z⟩
  obtain rfl : k' = k := Fin.ext h1
  rw [hiddenArr_apply, shapeCast_self, shapeCast_self, broadcastTo_1b_ab_apply, hA (ix2 p k') (ix2 p' k') h0 rfl]

/-- The body's stored value at an index of the output block is the whole arrays' function `off` rows down. -/
theorem pay1_block (x0 x1 : Vec Ideal S10000x16 .f32) (x2 x3 : Vec Ideal S1x16 .f32) (x4 x5 : Vec Ideal S16x10 .f32)
    (A₁ A₂ : S100000x16.Idx → EReal) (off : ℕ)
    (y : S10000x10.Idx) (i : S100000x10.Idx) (hi0 : (i 0).val = off + (y 0).val) (hi1 : (i 1).val = (y 1).val)
    (h₁ : ∀ (u : S10000x16.Idx) (z : S100000x16.Idx), (z 0).val = off + (u 0).val → (z 1).val = (u 1).val → (x0 u : EReal) = A₁ z)
    (h₂ : ∀ (u : S10000x16.Idx) (z : S100000x16.Idx), (z 0).val = off + (u 0).val → (z 1).val = (u 1).val → (x1 u : EReal) = A₂ z) :
    (k1_pay1 (F := Ideal) x0 x2 x1 x3 x4 x5 y : EReal) = combineArr (Ideal.ofBits .f32 0x00000000#32) A₁ A₂ x2 x3 x4 x5 i := by
  unfold k1_pay1
  refine congrArg₂ (· + ·) ?_ ?_
  · refine block_prod (R := 10000) (R' := 100000) (K := 16) (N := 10) none _ _ (hiddenArr (Ideal.ofBits .f32 0x00000000#32) A₁ x2) x4 off y i hi0 hi1 ?_ ?_
    · intro u z h0 h1
      exact hidden_block x0 x2 A₁ off h₁ _ _ _ u z h0 h1
    · intro u
      show (shapeCast S16x10 x4 shapeCasts_S16x10_S16x10 u : EReal) = x4 u
      rw [shapeCast_self]
  · refine block_prod (R := 10000) (R' := 100000) (K := 16) (N := 10) none _ _ (hiddenArr (Ideal.ofBits .f32 0x00000000#32) A₂ x3) x5 off y i hi0 hi1 ?_ ?_
    · intro u z h0 h1
      exact hidden_block x1 x3 A₂ off h₂ _ _ _ u z h0 h1
    · intro u
      show (shapeCast S16x10 x5 shapeCasts_S16x10_S16x10 u : EReal) = x5 u
      rw [shapeCast_self]

/-- Where the windows' blocks sit: the three row-tiled windows at block row `t`, the four small operands at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A small operand staged whole at block (0, 0) is the array itself. -/
theorem iblk1_2 (c : Dev nD) (t : Fin cfg1.N) : iblk1 V c 2 t = V c main_v90 := by
  obtain ⟨-, -, -, -, e0, e1, -⟩ := idx1 t
  funext u
  show V c main_v90 (((cfg1.win 2).blk t).view.emb u) = V c main_v90 u
  refine congrArg _ (funext fun a => Fin.ext ?_)
  match a with
  | ⟨0, _⟩ => show win1_2.index t (0 : Fin 2) * 1 + 1 * (u 0).val = (u 0).val; rw [e0]; omega
  | ⟨1, _⟩ => show win1_2.index t (1 : Fin 2) * 16 + 1 * (u 1).val = (u 1).val; rw [e1]; omega

theorem iblk1_3 (c : Dev nD) (t : Fin cfg1.N) : iblk1 V c 3 t = V c main_v91 := by
  obtain ⟨-, -, -, -, -, -, e0, e1, -⟩ := idx1 t
  funext u
  show V c main_v91 (((cfg1.win 3).blk t).view.emb u) = V c main_v91 u
  refine congrArg _ (funext fun a => Fin.ext ?_)
  match a with
  | ⟨0, _⟩ => show win1_3.index t (0 : Fin 2) * 1 + 1 * (u 0).val = (u 0).val; rw [e0]; omega
  | ⟨1, _⟩ => show win1_3.index t (1 : Fin 2) * 16 + 1 * (u 1).val = (u 1).val; rw [e1]; omega

theorem iblk1_4 (c : Dev nD) (t : Fin cfg1.N) : iblk1 V c 4 t = V c main_v92 := by
  obtain ⟨-, -, -, -, -, -, -, -, e0, e1, -⟩ := idx1 t
  funext u
  show V c main_v92 (((cfg1.win 4).blk t).view.emb u) = V c main_v92 u
  refine congrArg _ (funext fun a => Fin.ext ?_)
  match a with
  | ⟨0, _⟩ => show win1_4.index t (0 : Fin 2) * 16 + 1 * (u 0).val = (u 0).val; rw [e0]; omega
  | ⟨1, _⟩ => show win1_4.index t (1 : Fin 2) * 10 + 1 * (u 1).val = (u 1).val; rw [e1]; omega

theorem iblk1_5 (c : Dev nD) (t : Fin cfg1.N) : iblk1 V c 5 t = V c main_v93 := by
  obtain ⟨-, -, -, -, -, -, -, -, -, -, e0, e1, -⟩ := idx1 t
  funext u
  show V c main_v93 (((cfg1.win 5).blk t).view.emb u) = V c main_v93 u
  refine congrArg _ (funext fun a => Fin.ext ?_)
  match a with
  | ⟨0, _⟩ => show win1_5.index t (0 : Fin 2) * 16 + 1 * (u 0).val = (u 0).val; rw [e0]; omega
  | ⟨1, _⟩ => show win1_5.index t (1 : Fin 2) * 10 + 1 * (u 1).val = (u 1).val; rw [e1]; omega

/-- The region's result as a function of the arrays it found. -/
abbrev result1 (c : Dev nD) : S100000x10.Idx → EReal :=
  combineArr (Ideal.ofBits .f32 0x00000000#32) (V c main_v76) (V c main_v89) (V c main_v90) (V c main_v91) (V c main_v92) (V c main_v93)

/-- What point `t` writes back is block `t` of that function. -/
theorem flushed1 (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6, iblk1_2, iblk1_3, iblk1_4, iblk1_5]
  unfold out1_6
  rw [View.canon_unit_zero off2_zero]
  simp only [View.ld_unit_zero (S := S10000x16) off2_zero, View.ld_unit_zero (S := S1x16) off2_zero, View.ld_unit_zero (S := S16x10) off2_zero]
  obtain ⟨e00, e01, e10, e11, -, -, -, -, -, -, -, -, e60, e61⟩ := idx1 t
  funext j
  refine pay1_block (iblk1 V c 0 t) (iblk1 V c 1 t) (V c main_v90) (V c main_v91) (V c main_v92) (V c main_v93)
    (V c main_v76) (V c main_v89) (t.val * 10000) j (((cfg1.win 6).blk t).view.emb j) ?_ ?_ ?_ ?_
  · show win1_6.index t (0 : Fin 2) * 10000 + 1 * (j 0).val = t.val * 10000 + (j 0).val
    rw [e60]; omega
  · show win1_6.index t (1 : Fin 2) * 10 + 1 * (j 1).val = (j 1).val
    rw [e61]; omega
  · intro u z h0 h1
    show V c main_v76 (((cfg1.win 0).blk t).view.emb u) = V c main_v76 z
    refine congrArg _ (funext fun a => Fin.ext ?_)
    match a with
    | ⟨0, _⟩ => show win1_0.index t (0 : Fin 2) * 10000 + 1 * (u 0).val = (z 0).val; rw [e00, h0]; omega
    | ⟨1, _⟩ => show win1_0.index t (1 : Fin 2) * 16 + 1 * (u 1).val = (z 1).val; rw [e01, h1]; omega
  · intro u z h0 h1
    show V c main_v89 (((cfg1.win 1).blk t).view.emb u) = V c main_v89 z
    refine congrArg _ (funext fun a => Fin.ext ?_)
    match a with
    | ⟨0, _⟩ => show win1_1.index t (0 : Fin 2) * 10000 + 1 * (u 0).val = (z 0).val; rw [e10, h0]; omega
    | ⟨1, _⟩ => show win1_1.index t (1 : Fin 2) * 16 + 1 * (u 1).val = (z 1).val; rw [e11, h1]; omega

/-- An index of the result array is in point `t`'s block iff its row is in the block's rows. -/
theorem mem_blk1 (t : Fin cfg1.N) (i : S100000x10.Idx) :
    i ∈ ((cfg1.win 6).blk t).view.set ↔ ∀ a : Fin 2, win1_6.index t a * S10000x10.size a ≤ (i a).val ∧ (i a).val < win1_6.index t a * S10000x10.size a + S10000x10.size a := by
  show i ∈ ((View.whole main_v94).slice (win1_6.rect t)).set ↔ _
  rw [View.set_slice_whole, Rect.mem_set_unit]
  exact Iff.rfl

/-- The region's result array. -/
theorem region1 (c : Dev nD) : (dat1 V c).arrAt 6 cfg1.N = result1 V c :=
  (dat1 V c).arrAt_eq_of_cover 6 (result1 V c) (fun t _ => flushed1 V c t) fun i => by
    have hi0 : (i 0).val < 100000 := (i 0).isLt
    have hi1 : (i 1).val < 10 := (i 1).isLt
    have hN : cfg1.N = 10 := N_1
    refine ⟨⟨(i 0).val / 10000, by rw [hN]; omega⟩, flush1_6 _, ?_⟩
    rw [mem_blk1]
    obtain ⟨-, -, -, -, -, -, -, -, -, -, -, -, e60, e61⟩ := idx1 ⟨(i 0).val / 10000, by rw [hN]; omega⟩
    intro a
    match a with
    | ⟨0, _⟩ =>
      show win1_6.index _ (0 : Fin 2) * 10000 ≤ (i 0).val ∧ (i 0).val < win1_6.index _ (0 : Fin 2) * 10000 + 10000
      rw [e60]; show (i 0).val / 10000 * 10000 ≤ (i 0).val ∧ (i 0).val < (i 0).val / 10000 * 10000 + 10000; omega
    | ⟨1, _⟩ =>
      show win1_6.index _ (1 : Fin 2) * 10 ≤ (i 1).val ∧ (i 1).val < win1_6.index _ (1 : Fin 2) * 10 + 10
      rw [e61]; omega

end Cert.KernelIdeal.Hand

end
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.Region2.lean ====
/-
  Region 2 of the idealized kernel as one whole-array function: a bias row, then the log-softmax of every row.

  The region's grid is ten points; point `t` stages rows `10000 t … 10000 t + 9999` of the aggregated array [100000, 10]
  and the bias row [1, 10] whole, and writes back rows `10000 t …` of the result.  The body adds the bias row, takes each
  row's maximum `M` (a fold of `max` from `-∞`, and `max` with `-∞` once more), subtracts it, and subtracts the logarithm of
  the row's sum of exponentials.  A row of the result depends on that row of the input only, so what point `t` writes
  back is block `t` of the same function of the whole array, and the ten blocks tile the result.
-/
import proofs.«131783_j75625784148568_1_alg».proof.Proof.Gen.KernelIdeal.Frame
import proofs.«131783_j75625784148568_1_alg».proof.Proof.DenseSpec
import proofs.«131783_j75625784148568_1_alg».proof.Proof.LibLayout3
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen Cert.Dense Cert.LibLayout3
open Idealize.ShloMosaic Idealize.ShloMosaic.TcCoe Idealize.ShloMosaic.ValueIdx Idealize.SL.Sem
open Idealize.ShloMosaic.Pipeline (Dat)
open Cert.KernelIdeal.RegionValue (off2_zero)

variable (V : (c : Dev nD) → (b : Ref sig .tc) → Buf (Elt Ideal) ((c : Thread nD τ).loc b))

/-- The body's chain from the biased block `Y` — row maximum, shift, exponentials' sum, logarithm, shift — read at
    `(p, c)`: the log-softmax of row `p` of `Y`. -/
theorem lsm_chain (Y : FVec Ideal S10000x10 .f32) (hr : S10000x10.Reduces [1] S10000)
    (hc : S10000.ShapeCasts S10000x1) (hb : S10000x1.Broadcasts S10000x10) (p : Fin 10000) (c : Fin 10) :
    (subf
        (subf Y (broadcastTo S10000x10 (shapeCast S10000x1 (maximumf (broadcast S10000 (Scalar.ofBits (F := Ideal) .f32 0xFF800000#32))
          (multiReduction .maximumf [1] S10000 Y 0xFF800000#32 hr (.inl rfl) rfl)) hc) hb))
        (broadcastTo S10000x10 (log (shapeCast S10000x1 (multiReduction .add [1] S10000
          (exp (subf Y (broadcastTo S10000x10 (shapeCast S10000x1 (maximumf (broadcast S10000 (Scalar.ofBits (F := Ideal) .f32 0xFF800000#32))
            (multiReduction .maximumf [1] S10000 Y 0xFF800000#32 hr (.inl rfl) rfl)) hc) hb)))
          0x00000000#32 hr (.inl rfl) rfl) hc)) hb) (ix2 p c) : EReal)
      = lsmArr (Ideal.ofBits .f32 0xFF800000#32) Y (ix2 p c) := by
  have hM : ∀ r : Fin 10000, (maximumf (broadcast S10000 (Scalar.ofBits (F := Ideal) .f32 0xFF800000#32))
      (multiReduction .maximumf [1] S10000 Y 0xFF800000#32 hr (.inl rfl) rfl) (ix1 r) : EReal) = rowMax (Ideal.ofBits .f32 0xFF800000#32) Y r := by
    intro r
    show max (Ideal.ofBits .f32 0xFF800000#32) (multiReduction (s := S10000x10) .maximumf ([1] : List (Fin 2)) S10000 Y 0xFF800000#32 hr (.inl rfl) rfl (ix1 r)) = _
    rw [max_ab_last]
    rfl
  have hD : ∀ (r : Fin 10000) (j : Fin 10), (subf Y (broadcastTo S10000x10 (shapeCast S10000x1 (maximumf (broadcast S10000 (Scalar.ofBits (F := Ideal) .f32 0xFF800000#32))
      (multiReduction .maximumf [1] S10000 Y 0xFF800000#32 hr (.inl rfl) rfl)) hc) hb) (ix2 r j) : EReal) = Y (ix2 r j) - rowMax (Ideal.ofBits .f32 0xFF800000#32) Y r := by
    intro r j
    show (Y (ix2 r j) : EReal) - broadcastTo S10000x10 _ hb (ix2 r j) = _
    rw [broadcastTo_a1_ab_apply, shapeCast_a_a1_apply, hM]
  show (subf Y _ (ix2 p c) : EReal) - broadcastTo S10000x10 _ hb (ix2 p c) = _
  rw [broadcastTo_a1_ab_apply, hD, lsmArr_apply]
  refine congrArg _ ?_
  show Ideal.log (shapeCast S10000x1 _ hc (ix2 p (0 : Fin 1))) = _
  rw [shapeCast_a_a1_apply, sum_ab_last]
  refine congrArg Ideal.log (Finset.sum_congr rfl fun j _ => ?_)
  show Ideal.exp (subf Y _ (ix2 p j)) = _
  rw [hD]

/-- The body's stored value at an index of the output block is the whole array's function `off` rows down. -/
theorem pay2_block (x0 : Vec Ideal S10000x10 .f32) (x1 : Vec Ideal S1x10 .f32) (A : S100000x10.Idx → EReal) (off : ℕ)
    (y : S10000x10.Idx) (i : S100000x10.Idx) (hi0 : (i 0).val = off + (y 0).val) (hi1 : (i 1).val = (y 1).val)
    (hA : ∀ (u : S10000x10.Idx) (z : S100000x10.Idx), (z 0).val = off + (u 0).val → (z 1).val = (u 1).val → (x0 u : EReal) = A z) :
    (k2_pay1 (F := Ideal) x0 x1 y : EReal) = lsmArr (Ideal.ofBits .f32 0xFF800000#32) (addRow A x1) i := by
  obtain ⟨p, c, rfl⟩ : ∃ (p : Fin 10000) (c : Fin 10), y = ix2 p c := ⟨y 0, y 1, eq_ix2 y⟩
  obtain ⟨p', c', rfl⟩ : ∃ (p' : Fin 100000) (c' : Fin 10), i = ix2 p' c' := ⟨i 0, i 1, eq_ix2 i⟩
  obtain rfl : c' = c := Fin.ext hi1
  unfold k2_pay1
  refine (lsm_chain _ _ _ _ p c').trans ?_
  refine lsmArr_rows (Ideal.ofBits .f32 0xFF800000#32) _ (addRow A x1) p p' (fun j => ?_) c'
  show (shapeCast S10000x10 x0 shapeCasts_S10000x10_S10000x10 (ix2 p j) : EReal)
      + broadcastTo S10000x10 (shapeCast S1x10 x1 shapeCasts_S1x10_S1x10) broadcasts_S1x10_S10000x10 (ix2 p j) = _
  rw [shapeCast_self, shapeCast_self, broadcastTo_1b_ab_apply, addRow_apply, hA (ix2 p j) (ix2 p' j) hi0 rfl]

/-- Where the windows' blocks sit: the two row-tiled windows at block row `t`, the bias row at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The bias row staged whole at block (0, 0) is the array itself. -/
theorem iblk2_1 (c : Dev nD) (t : Fin cfg2.N) : iblk2 V c 1 t = V c main_v108 := by
  obtain ⟨-, -, e0, e1, -⟩ := idx2 t
  funext u
  show V c main_v108 (((cfg2.win 1).blk t).view.emb u) = V c main_v108 u
  refine congrArg _ (funext fun a => Fin.ext ?_)
  match a with
  | ⟨0, _⟩ => show win2_1.index t (0 : Fin 2) * 1 + 1 * (u 0).val = (u 0).val; rw [e0]; omega
  | ⟨1, _⟩ => show win2_1.index t (1 : Fin 2) * 10 + 1 * (u 1).val = (u 1).val; rw [e1]; omega

/-- The region's result as a function of the arrays it found. -/
abbrev result2 (c : Dev nD) : S100000x10.Idx → EReal :=
  lsmArr (Ideal.ofBits .f32 0xFF800000#32) (addRow (V c main_v107) (V c main_v108))

/-- What point `t` writes back is block `t` of that function. -/
theorem flushed2 (c : Dev nD) (t : Fin cfg2.N) :
    (dat2 V c).flushed 2 t = ((cfg2.win 2).blk t).view.read (Elt Ideal) (result2 V c) := by
  show (cfg2.win 2).cut (grid2.coords t) ((dat2 V c).after 2 t) = _
  rw [after2_2, iblk2_1]
  unfold out2_2
  rw [View.canon_unit_zero off2_zero]
  simp only [View.ld_unit_zero (S := S10000x10) off2_zero, View.ld_unit_zero (S := S1x10) off2_zero]
  obtain ⟨e00, e01, -, -, e20, e21⟩ := idx2 t
  funext j
  refine pay2_block (iblk2 V c 0 t) (V c main_v108) (V c main_v107) (t.val * 10000) j (((cfg2.win 2).blk t).view.emb j) ?_ ?_ ?_
  · show win2_2.index t (0 : Fin 2) * 10000 + 1 * (j 0).val = t.val * 10000 + (j 0).val
    rw [e20]; omega
  · show win2_2.index t (1 : Fin 2) * 10 + 1 * (j 1).val = (j 1).val
    rw [e21]; omega
  · intro u z h0 h1
    show V c main_v107 (((cfg2.win 0).blk t).view.emb u) = V c main_v107 z
    refine congrArg _ (funext fun a => Fin.ext ?_)
    match a with
    | ⟨0, _⟩ => show win2_0.index t (0 : Fin 2) * 10000 + 1 * (u 0).val = (z 0).val; rw [e00, h0]; omega
    | ⟨1, _⟩ => show win2_0.index t (1 : Fin 2) * 10 + 1 * (u 1).val = (z 1).val; rw [e01, h1]; omega

/-- An index of the result array is in point `t`'s block iff its row is in the block's rows. -/
theorem mem_blk2 (t : Fin cfg2.N) (i : S100000x10.Idx) :
    i ∈ ((cfg2.win 2).blk t).view.set ↔ ∀ a : Fin 2, win2_2.index t a * S10000x10.size a ≤ (i a).val ∧ (i a).val < win2_2.index t a * S10000x10.size a + S10000x10.size a := by
  show i ∈ ((View.whole main_v109).slice (win2_2.rect t)).set ↔ _
  rw [View.set_slice_whole, Rect.mem_set_unit]
  exact Iff.rfl

/-- The region's result array. -/
theorem region2 (c : Dev nD) : (dat2 V c).arrAt 2 cfg2.N = result2 V c :=
  (dat2 V c).arrAt_eq_of_cover 2 (result2 V c) (fun t _ => flushed2 V c t) fun i => by
    have hi0 : (i 0).val < 100000 := (i 0).isLt
    have hi1 : (i 1).val < 10 := (i 1).isLt
    have hN : cfg2.N = 10 := N_2
    refine ⟨⟨(i 0).val / 10000, by rw [hN]; omega⟩, flush2_2 _, ?_⟩
    rw [mem_blk2]
    obtain ⟨-, -, -, -, e20, e21⟩ := idx2 ⟨(i 0).val / 10000, by rw [hN]; omega⟩
    intro a
    match a with
    | ⟨0, _⟩ =>
      show win2_2.index _ (0 : Fin 2) * 10000 ≤ (i 0).val ∧ (i 0).val < win2_2.index _ (0 : Fin 2) * 10000 + 10000
      rw [e20]; show (i 0).val / 10000 * 10000 ≤ (i 0).val ∧ (i 0).val < (i 0).val / 10000 * 10000 + 10000; omega
    | ⟨1, _⟩ =>
      show win2_2.index _ (1 : Fin 2) * 10 ≤ (i 1).val ∧ (i 1).val < win2_2.index _ (1 : Fin 2) * 10 + 10
      rw [e21]; omega

end Cert.KernelIdeal.Hand

end
-- ==== Proof.KernelValue.lean ====
/-
  The idealized kernel's result as one function of its nine argument arrays, and its run.

  Reading the program from the result back: the result is the log-softmax of the rows of `agg₃ + b4`, where `agg₃` is the
  first edge list's aggregation of region 1's result; region 1's result combines the two 16-column aggregations — the
  first edge list's of the left half and the second edge list's of the right half of the product `x · [W1 | W2]` — with
  the two bias rows and the two halves of `W4`.
-/
import proofs.«131783_j75625784148568_1_alg».proof.Proof.KernelRun
import proofs.«131783_j75625784148568_1_alg».proof.Proof.KernelHost
import proofs.«131783_j75625784148568_1_alg».proof.Proof.Region0
import proofs.«131783_j75625784148568_1_alg».proof.Proof.Region1
import proofs.«131783_j75625784148568_1_alg».proof.Proof.Region2

set_option maxRecDepth 16384

noncomputable section

namespace Cert.KernelIdeal.Hand

open Cert.KernelIdeal Cert.KernelIdeal.Gen Cert.Graph Cert.Dense
open Idealize.ShloMosaic Idealize.ShloMosaic.TcCoe Idealize.SL.Sem
open Cert.KernelIdeal.RegionValue (prodArr)

variable (m : (ℓ : Loc nD τ sig) → Buf (Elt Ideal) ℓ) (ρ : Dev nD → PrngReg)

/-- The product `x · [W1 | W2]`: region 0's result. -/
abbrev xw (c : Dev nD) : S100000x32.Idx → EReal := (prodArr (m ((c : Thread nD τ).loc main_arg0)) (concatenate S128x32 1 [⟨S128x16, (m ((c : Thread nD τ).loc main_arg3))⟩, ⟨S128x16, (m ((c : Thread nD τ).loc main_arg5))⟩] concatenates_S128x16_S128x16_S128x32_d1))

/-- Region 1's result. -/
abbrev hid (c : Dev nD) : S100000x10.Idx → EReal :=
  combineArr (Ideal.ofBits .f32 0x00000000#32)
    (agg16 (ends0 (m ((c : Thread nD τ).loc main_arg1))) (ends1 (m ((c : Thread nD τ).loc main_arg1))) (norm (ends0 (m ((c : Thread nD τ).loc main_arg1))) (ends1 (m ((c : Thread nD τ).loc main_arg1))) (broadcastInDim S100000 ![] bcast_S_S100000 (constant (F := Ideal) S_ .f32 0x00000000#32))) (extractStridedSlice S100000x16 ![0, 0] (xw m c) slices_S100000x32_S100000x16_0_0))
    (agg16 (ends0 (m ((c : Thread nD τ).loc main_arg2))) (ends1 (m ((c : Thread nD τ).loc main_arg2))) (norm (ends0 (m ((c : Thread nD τ).loc main_arg2))) (ends1 (m ((c : Thread nD τ).loc main_arg2))) (broadcastInDim S100000 ![] bcast_S_S100000 (constant (F := Ideal) S_ .f32 0x00000000#32))) (extractStridedSlice S100000x16 ![0, 16] (xw m c) slices_S100000x32_S100000x16_0_16))
    (shapeCast S1x16 (m ((c : Thread nD τ).loc main_arg4)) shapeCasts_S16_S1x16) (shapeCast S1x16 (m ((c : Thread nD τ).loc main_arg6)) shapeCasts_S16_S1x16)
    (extractStridedSlice S16x10 ![0, 0] (m ((c : Thread nD τ).loc main_arg7)) slices_S32x10_S16x10_0_0) (extractStridedSlice S16x10 ![16, 0] (m ((c : Thread nD τ).loc main_arg7)) slices_S32x10_S16x10_16_0)

/-- The kernel's result. -/
abbrev out (c : Dev nD) : S100000x10.Idx → EReal :=
  lsmArr (Ideal.ofBits .f32 0xFF800000#32) (addRow (agg10 (ends0 (m ((c : Thread nD τ).loc main_arg1))) (ends1 (m ((c : Thread nD τ).loc main_arg1))) (norm (ends0 (m ((c : Thread nD τ).loc main_arg1))) (ends1 (m ((c : Thread nD τ).loc main_arg1))) (broadcastInDim S100000 ![] bcast_S_S100000 (constant (F := Ideal) S_ .f32 0x00000000#32))) (hid m c)) (shapeCast S1x10 (m ((c : Thread nD τ).loc main_arg8)) shapeCasts_S10_S1x10))

/-- Region 0's result array is the product. -/
theorem xw_eq (c : Dev nD) : W2 m ρ c (Proc.devRef .tc main_v1) = xw m c := by
  rw [W2_v1, region0, V1_arg0, V1_v0]

/-- Region 1's result array. -/
theorem hid_eq (c : Dev nD) : W8 m ρ c (Proc.devRef .tc main_v94) = hid m c := by
  rw [W8_v94, region1]
  dsimp only [result1]
  rw [V7_v76, V7_v89, V7_v90, V7_v91, V7_v92, V7_v93, xw_eq]

/-- The result buffer's final contents. -/
theorem out_eq (c : Dev nD) : W10 m ρ c (Proc.devRef .tc main_v109) = out m c := by
  rw [W10_v109, region2]
  dsimp only [result2]
  rw [V9_v107, V9_v108, hid_eq]

/-- The run: the result buffer ends at `out`, the arguments as launched. -/
theorem run : θ_run defs (onTc (τ := τ) (main (F := Ideal))) ⟨m, fun _ => 0, ρ⟩ (fun r => ∀ c : Dev nD,
      r.2.mem ((c.tc : Thread nD τ).loc main_v109) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ c), (h c).2⟩) (run_named m ρ)

end Cert.KernelIdeal.Hand

end
-- ==== Proof.RefSpec.lean ====
/-
  The idealized reference's result as one function of its nine argument arrays.

  The reference is three graph convolutions: `x₁ = relu (Â_e (x · W1) + b1)` over the first edge list, `x₂ = relu (Â_t (x · W2) + b2)`
  over the second, and `log_softmax (Â_e ([x₁ | x₂] · W4) + b4)` over the first again, where `Â` aggregates along an edge list
  with the symmetric degree weights.  Its operations on the edge lists are the functions of GraphOps (the kernel's
  program applies the same ones); what is spelt out here is the dense part as the host writes it: `dot_general`, the bias
  vector broadcast to a row and over the rows, the rectifier as a maximum with a broadcast zero, the join of the two
  hidden arrays along the columns, and jax's log-softmax chain.
-/
import proofs.«131783_j75625784148568_1_alg».proof.ReferenceIdeal
import proofs.«131783_j75625784148568_1_alg».proof.Proof.Gen.ReferenceIdeal
import proofs.«131783_j75625784148568_1_alg».proof.Proof.Gen.KernelIdeal
import proofs.«131783_j75625784148568_1_alg».proof.Proof.GraphOps

noncomputable section

namespace Cert.ReferenceIdeal.Hand

open Cert.ReferenceIdeal Cert.ReferenceIdeal.Gen
open Idealize.ShloMosaic

variable {F : FTy → Type} [FloatOps F]

/-- Two [100000, 16] arrays joined along the columns. -/
def joinF (a b : (⟨S100000x16, .f32⟩ : BufTy).Contents (Elt F)) : (⟨S100000x32, .f32⟩ : BufTy).Contents (Elt F) :=
  concatenate S100000x32 1 [⟨S100000x16, a⟩, ⟨S100000x16, b⟩] concatenates_S100000x16_S100000x16_S100000x32_d1

/-- The level `dinv` takes where the degree is not positive: a zero broadcast over the nodes. -/
def zeroN : (⟨S100000, .f32⟩ : BufTy).Contents (Elt F) :=
  broadcastInDim S100000 ![] bcast_S_S100000 (constant S_ .f32 0x00000000#32)

/-- A bias vector added to every row of a 16-column array, then the rectifier. -/
def relu16 (a : (⟨S100000x16, .f32⟩ : BufTy).Contents (Elt F)) (b : (⟨S16, .f32⟩ : BufTy).Contents (Elt F)) :
    (⟨S100000x16, .f32⟩ : BufTy).Contents (Elt F) :=
  maximumf (addf a (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- jax's log-softmax of the rows of a 10-column array. -/
def hostLsm (y : (⟨S100000x10, .f32⟩ : BufTy).Contents (Elt F)) : (⟨S100000x10, .f32⟩ : BufTy).Contents (Elt F) :=
  subf
    (subf y (broadcastInDim S100000x10 ![0, 1] bcast_S100000x1_S100000x10_0_1 (broadcastInDim S100000x1 ![0] bcast_S100000_S100000x1_0
      (maximumf (broadcastInDim S100000 ![] bcast_S_S100000 (constant S_ .f32 0xFF800000#32))
        (Host.reduce FloatOps.maximumf y (constant S_ .f32 0xFF800000#32) reducesTo_S100000x10_S100000_d1 h_S_)))))
    (broadcastInDim S100000x10 ![0, 1] bcast_S100000x1_S100000x10_0_1 (Host.log (broadcastInDim S100000x1 ![0] bcast_S100000_S100000x1_0
      (Host.reduceAdd (Host.exp (subf y (broadcastInDim S100000x10 ![0, 1] bcast_S100000x1_S100000x10_0_1 (broadcastInDim S100000x1 ![0] bcast_S100000_S100000x1_0
        (maximumf (broadcastInDim S100000 ![] bcast_S_S100000 (constant S_ .f32 0xFF800000#32))
          (Host.reduce FloatOps.maximumf y (constant S_ .f32 0xFF800000#32) reducesTo_S100000x10_S100000_d1 h_S_))))))
        (constant S_ .f32 0x00000000#32) reducesTo_S100000x10_S100000_d1 h_S_))))

/-- One 16-column convolution before its bias: the aggregation along the edge list `e` of `x · w`. -/
def conv16 (x : (⟨S100000x128, .f32⟩ : BufTy).Contents (Elt F)) (e : (⟨S2x3200000, .i32⟩ : BufTy).Contents (Elt F))
    (w : (⟨S128x16, .f32⟩ : BufTy).Contents (Elt F)) : (⟨S100000x16, .f32⟩ : BufTy).Contents (Elt F) :=
  Cert.Graph.agg16 (Cert.Graph.ends0 e) (Cert.Graph.ends1 e) (Cert.Graph.norm (Cert.Graph.ends0 e) (Cert.Graph.ends1 e) zeroN)
    (Host.dotGeneral dot_S100000x128_S128x16_S100000x16_1_0_0_1_n_n none x w)

/-- The reference's result. -/
def out (x : (⟨S100000x128, .f32⟩ : BufTy).Contents (Elt F)) (e t : (⟨S2x3200000, .i32⟩ : BufTy).Contents (Elt F))
    (w1 : (⟨S128x16, .f32⟩ : BufTy).Contents (Elt F)) (b1 : (⟨S16, .f32⟩ : BufTy).Contents (Elt F))
    (w2 : (⟨S128x16, .f32⟩ : BufTy).Contents (Elt F)) (b2 : (⟨S16, .f32⟩ : BufTy).Contents (Elt F))
    (w4 : (⟨S32x10, .f32⟩ : BufTy).Contents (Elt F)) (b4 : (⟨S10, .f32⟩ : BufTy).Contents (Elt F)) :
    (⟨S100000x10, .f32⟩ : BufTy).Contents (Elt F) :=
  hostLsm (addf
    (Cert.Graph.agg10 (Cert.Graph.ends0 e) (Cert.Graph.ends1 e) (Cert.Graph.norm (Cert.Graph.ends0 e) (Cert.Graph.ends1 e) zeroN)
      (Host.dotGeneral dot_S100000x32_S32x10_S100000x10_1_0_0_1_n_n none (joinF (relu16 (conv16 x e w1) b1) (relu16 (conv16 x t w2) b2)) w4))
    (broadcastInDim S100000x10 ![0, 1] bcast_S1x10_S100000x10_0_1 (broadcastInDim S1x10 ![1] bcast_S10_S1x10_1 b4)))

end Cert.ReferenceIdeal.Hand

end
-- ==== Proof.LibTypedRef.lean ====
/-
  CONTENTS AT A TYPED REFERENCE'S VALUE TYPE AND AT ITS BUFFER'S OWN TYPE.

  A host function whose operations are listed inside its caller names its buffers by typed references: a buffer together with
  the equation that the buffer's type is the value type `T` it is used at. Such an operation reads a buffer's contents
  moved along that equation to `T` (`ofBuf`) and writes its result moved back (`toBuf`). Both moves are the identity up
  to the equation. Stated here for every typed reference:
  • moved to the buffer's type and back, contents are what they were (`ofBuf_toBuf`);
  • contents moved either way are equal to whatever they are heterogeneously equal to (`ofBuf_eq`, `toBuf_eq`) — for a
    literal reference the two types are the same by computation, so the side condition is then reflexivity.
  The proofs take the reference apart and substitute the equation, which is possible because `T` is a variable here;
  nothing about any particular buffer table is evaluated.
-/
import Idealize.ShloMosaic.Lib.StableHlo

noncomputable section

namespace Cert.TypedRef

open Idealize.ShloMosaic Idealize.ShloMosaic.StableHlo

variable {sig : RefSig} {Val : EltTy → Type} {T : BufTy}

/-- Contents moved to the buffer's own type and back are what they were. -/
theorem ofBuf_toBuf (x : TRef sig T) (v : T.Contents Val) : x.ofBuf (x.toBuf v) = v := by
  obtain ⟨r, te, od, us⟩ := x
  subst te
  rfl

/-- The buffer's contents read at the value type are any value of that type they are heterogeneously equal to. -/
theorem ofBuf_eq (x : TRef sig T) (w' : x.ref.ty.Contents Val) (w : T.Contents Val) (h : HEq w' w) : x.ofBuf w' = w :=
  eq_of_heq ((cast_heq _ w').trans h)

/-- A value written at the buffer's own type is any contents of the buffer it is heterogeneously equal to. -/
theorem toBuf_eq (x : TRef sig T) (v : T.Contents Val) (w' : x.ref.ty.Contents Val) (h : HEq v w') : x.toBuf v = w' :=
  eq_of_heq ((cast_heq _ v).trans h)

end Cert.TypedRef

end
-- ==== Proof.RefValue.lean ====
/-
  The idealized reference's run.

  The program is a straight line of 202 host operations; its run is the library's run of such a line, which leaves every
  buffer at the fold of the operations over the launch contents.  The fold is evaluated in four stretches — the first
  convolution with its rectifier (operations 0–62), the second (63–125), the join, the product with `W4`, the third
  aggregation and the last bias (126–186), and the log-softmax (187–201) —, each from an arbitrary starting valuation, so that a later stretch sees
  the earlier results only as the contents of their buffers.  Within a stretch every operation's result is rewritten to
  its function's value (two-operand joins named first, so that their operands are plain arguments).  Chained, the
  result buffer holds the function `out` of RefSpec at the launch contents of the nine arguments.
-/
import proofs.«131783_j75625784148568_1_alg».proof.Defs
import proofs.«131783_j75625784148568_1_alg».proof.Proof.RefRun
import proofs.«131783_j75625784148568_1_alg».proof.Proof.RefSpec
import proofs.«131783_j75625784148568_1_alg».proof.Proof.LibTypedRef
import Idealize.ShloMosaic.Lib.StableHlo.Run

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- A two-operand join of int32 vectors is `joinI` of its operands: the operands become plain arguments. -/
theorem joinI_fold (a : (⟨S3200000, .i32⟩ : BufTy).Contents (Elt F)) (b : (⟨S100000, .i32⟩ : BufTy).Contents (Elt F)) :
    (concatenate S3300000 0 [⟨S3200000, a⟩, ⟨S100000, b⟩] concatenates_S3200000_S100000_S3300000_d0 : (⟨S3300000, .i32⟩ : BufTy).Contents (Elt F))
      = Cert.Graph.joinI a b := rfl

theorem joinF_fold (a b : (⟨S100000x16, .f32⟩ : BufTy).Contents (Elt F)) :
    (concatenate S100000x32 1 [⟨S100000x16, a⟩, ⟨S100000x16, b⟩] concatenates_S100000x16_S100000x16_S100000x32_d1 : (⟨S100000x32, .f32⟩ : BufTy).Contents (Elt F))
      = joinF a b := rfl

/-- Two lines run one after the other: the fold over their concatenation is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first convolution and its rectifier. -/
abbrev opsA : List (HloOp τ sig (Elt F)) := (ops (F := F)).take 63
/-- The second convolution and its rectifier. -/
abbrev opsB : List (HloOp τ sig (Elt F)) := ((ops (F := F)).drop 63).take 63
/-- The join, the product with `W4`, the third aggregation and the last bias. -/
abbrev opsC : List (HloOp τ sig (Elt F)) := (((ops (F := F)).drop 63).drop 63).take 61
/-- The log-softmax. -/
abbrev opsD : List (HloOp τ sig (Elt F)) := (((ops (F := F)).drop 63).drop 63).drop 61

theorem ops_split : (ops (F := F)) = opsA ++ (opsB ++ (opsC ++ opsD)) := by
  simp only [opsA, opsB, opsC, opsD, List.take_append_drop]

/-- Evaluate a stretch's fold at a buffer: list the stretch's operations, name the joins, rewrite every operation's
    result; a value written at a typed reference and read back there is the value. -/
local macro "stage_eval" : tactic => `(tactic| (
  simp only [opsA, opsB, opsC, opsD, ops, List.take_succ_cons, List.take_zero, List.drop_succ_cons, List.drop_zero, joinI_fold, joinF_fold]
  after_results_simp <;> try simp only [Cert.TypedRef.ofBuf_toBuf]))

section Stages
variable (V : Valuation τ sig (Elt F))

/-! ## The first stretch -/

set_option maxHeartbeats 40000000 in
theorem stageA : after opsA V (Proc.devRef .tc main_v47)
    = relu16 (conv16 (V (Proc.devRef .tc main_arg0)) (V (Proc.devRef .tc main_arg1)) (V (Proc.devRef .tc main_arg3))) (V (Proc.devRef .tc main_arg4)) := by
  stage_eval <;> rfl

set_option maxHeartbeats 40000000 in
theorem stageA_arg0 : after opsA V (Proc.devRef .tc main_arg0) = (V (Proc.devRef .tc main_arg0)) := by
  stage_eval <;> rfl
set_option maxHeartbeats 40000000 in
theorem stageA_arg1 : after opsA V (Proc.devRef .tc main_arg1) = (V (Proc.devRef .tc main_arg1)) := by
  stage_eval <;> rfl
set_option maxHeartbeats 40000000 in
theorem stageA_arg2 : after opsA V (Proc.devRef .tc main_arg2) = (V (Proc.devRef .tc main_arg2)) := by
  stage_eval <;> rfl
set_option maxHeartbeats 40000000 in
theorem stageA_arg5 : after opsA V (Proc.devRef .tc main_arg5) = (V (Proc.devRef .tc main_arg5)) := by
  stage_eval <;> rfl
set_option maxHeartbeats 40000000 in
theorem stageA_arg6 : after opsA V (Proc.devRef .tc main_arg6) = (V (Proc.devRef .tc main_arg6)) := by
  stage_eval <;> rfl
set_option maxHeartbeats 40000000 in
theorem stageA_arg7 : after opsA V (Proc.devRef .tc main_arg7) = (V (Proc.devRef .tc main_arg7)) := by
  stage_eval <;> rfl
set_option maxHeartbeats 40000000 in
theorem stageA_arg8 : after opsA V (Proc.devRef .tc main_arg8) = (V (Proc.devRef .tc main_arg8)) := by
  stage_eval <;> rfl

/-! ## The second stretch -/

set_option maxHeartbeats 40000000 in
theorem stageB : after opsB V (Proc.devRef .tc main_v95)
    = relu16 (conv16 (V (Proc.devRef .tc main_arg0)) (V (Proc.devRef .tc main_arg2)) (V (Proc.devRef .tc main_arg5))) (V (Proc.devRef .tc main_arg6)) := by
  stage_eval <;> rfl

set_option maxHeartbeats 40000000 in
theorem stageB_v47 : after opsB V (Proc.devRef .tc main_v47) = (V (Proc.devRef .tc main_v47)) := by
  stage_eval <;> rfl

set_option maxHeartbeats 40000000 in
theorem stageB_arg1 : after opsB V (Proc.devRef .tc main_arg1) = (V (Proc.devRef .tc main_arg1)) := by
  stage_eval <;> rfl
set_option maxHeartbeats 40000000 in
theorem stageB_arg7 : after opsB V (Proc.devRef .tc main_arg7) = (V (Proc.devRef .tc main_arg7)) := by
  stage_eval <;> rfl
set_option maxHeartbeats 40000000 in
theorem stageB_arg8 : after opsB V (Proc.devRef .tc main_arg8) = (V (Proc.devRef .tc main_arg8)) := by
  stage_eval <;> rfl

/-! ## The third stretch -/

set_option maxRecDepth 65536 in
set_option maxHeartbeats 40000000 in
theorem stageC : after opsC V (Proc.devRef .tc main_v143)
    = addf
        (Cert.Graph.agg10 (Cert.Graph.ends0 (V (Proc.devRef .tc main_arg1))) (Cert.Graph.ends1 (V (Proc.devRef .tc main_arg1)))
          (Cert.Graph.norm (Cert.Graph.ends0 (V (Proc.devRef .tc main_arg1))) (Cert.Graph.ends1 (V (Proc.devRef .tc main_arg1))) zeroN)
          (Host.dotGeneral dot_S100000x32_S32x10_S100000x10_1_0_0_1_n_n none (joinF (V (Proc.devRef .tc main_v47)) (V (Proc.devRef .tc main_v95))) (V (Proc.devRef .tc main_arg7))))
        (broadcastInDim S100000x10 ![0, 1] bcast_S1x10_S100000x10_0_1 (broadcastInDim S1x10 ![1] bcast_S10_S1x10_1 (V (Proc.devRef .tc main_arg8)))) := by
  stage_eval <;> rfl

/-! ## The last stretch -/

set_option maxRecDepth 65536 in
set_option maxHeartbeats 40000000 in
theorem stageD : after opsD V (Proc.devRef .tc main_v144) = hostLsm (V (Proc.devRef .tc main_v143)) := by
  stage_eval <;> rfl

end Stages

/-- The result buffer after the program's 202 operations, from the launch contents. -/
theorem fold_out (m : (ℓ : Loc nD τ sig) → Buf (Elt F) ℓ) (c : Dev nD) :
    after (ops (F := F)) (launchContents m c) (Proc.devRef .tc main_v144)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [ops_split, after_append, after_append, after_append, stageD, stageC, stageB, stageB_v47, stageB_arg1, stageB_arg7, stageB_arg8,
    stageA, stageA_arg0, stageA_arg1, stageA_arg2, stageA_arg5, stageA_arg6, stageA_arg7, stageA_arg8]
  rfl

set_option maxRecDepth 8192 in
set_option maxHeartbeats 80000000 in
/-- The run: every weakly fair execution terminates, the result buffer at `out` of the arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v144).trans (fold_out m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Hand

end
-- ==== Proof.HostLayers.lean ====
/-
  Host operations read at an index written by coordinates, generic in the extents.

  • The four `broadcast_in_dim` forms a bias vector and a per-row statistic go through: a vector as a one-row array
    [N] → [1, N], a one-row array over the rows [1, N] → [R, N], a vector as a column [R] → [R, 1], and a column over the
    columns [R, 1] → [R, N].
  • A one-operand reduction over the last axis of an [a, b] array at row `r`: with a maximum body the fold of `max` from
    the initial value over the row, with a sum body the initial value plus the row's sum.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.HostLayers

open Idealize.ShloMosaic Idealize.ShloMosaic.ValueIdx

section Broadcasts
variable {α : Type}

/-- A vector [N] as a one-row array [1, N] reads, at `(u, c)`, the vector at `c`. -/
theorem row_of_vec_apply {N : ℕ} (x : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h x (ix2 u c) = x (ix1 c) := by
  refine broadcastInDim_apply ![1] h x (ix2 u c) (ix1 c) fun a => ?_
  match a with
  | ⟨0, _⟩ =>
    show c.val = if N = 1 then 0 else c.val
    split
    · have := c.isLt; omega
    · rfl

/-- A one-row array [1, N] broadcast over the rows reads, at `(p, c)`, its one row at `c`. -/
theorem rows_of_row_apply {R N : ℕ} (v : (⟨2, ![1, N]⟩ : Shape).Idx → α)
    (h : (⟨2, ![1, N]⟩ : Shape).BroadcastsInDim ⟨2, ![R, N]⟩ ![0, 1]) (p : Fin R) (c : Fin N) :
    broadcastInDim ⟨2, ![R, N]⟩ ![0, 1] h v (ix2 p c) = v (ix2 (0 : Fin 1) c) := by
  refine broadcastInDim_apply ![0, 1] h v (ix2 p c) (ix2 (0 : Fin 1) c) fun a => ?_
  match a with
  | ⟨0, _⟩ => show (0 : ℕ) = if (1 : ℕ) = 1 then 0 else p.val; rw [if_pos rfl]
  | ⟨1, _⟩ =>
    show c.val = if N = 1 then 0 else c.val
    split
    · have := c.isLt; omega
    · rfl

/-- A vector [R] as a column [R, 1] reads, at `(p, u)`, the vector at `p`. -/
theorem col_of_vec_apply {R : ℕ} (x : (⟨1, ![R]⟩ : Shape).Idx → α)
    (h : (⟨1, ![R]⟩ : Shape).BroadcastsInDim ⟨2, ![R, 1]⟩ ![0]) (p : Fin R) (u : Fin 1) :
    broadcastInDim ⟨2, ![R, 1]⟩ ![0] h x (ix2 p u) = x (ix1 p) := by
  refine broadcastInDim_apply ![0] h x (ix2 p u) (ix1 p) fun a => ?_
  match a with
  | ⟨0, _⟩ =>
    show p.val = if R = 1 then 0 else p.val
    split
    · have := p.isLt; omega
    · rfl

/-- A column [R, 1] broadcast over the columns reads, at `(p, c)`, the column at `p`. -/
theorem cols_of_col_apply {R N : ℕ} (v : (⟨2, ![R, 1]⟩ : Shape).Idx → α)
    (h : (⟨2, ![R, 1]⟩ : Shape).BroadcastsInDim ⟨2, ![R, N]⟩ ![0, 1]) (p : Fin R) (c : Fin N) :
    broadcastInDim ⟨2, ![R, N]⟩ ![0, 1] h v (ix2 p c) = v (ix2 p (0 : Fin 1)) := by
  refine broadcastInDim_apply ![0, 1] h v (ix2 p c) (ix2 p (0 : Fin 1)) fun a => ?_
  match a with
  | ⟨0, _⟩ =>
    show p.val = if R = 1 then 0 else p.val
    split
    · have := p.isLt; omega
    · rfl
  | ⟨1, _⟩ => show (0 : ℕ) = if (1 : ℕ) = 1 then 0 else c.val; rw [if_pos rfl]

end Broadcasts

/-- Over an [a, b] array reduced along its last axis, the index above `r` with coordinate `j` is `(r, j)`. -/
theorem lift_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- The host's maximum over the last axis at row `r`: the fold of `max` from the initial value over the row. -/
theorem hmax_last {a b : ℕ} {u : Shape} (x : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (r : Fin a) :
    Host.reduce FloatOps.maximumf x init h' hu (ix1 r)
      = (Finset.univ : Finset (Fin b)).fold max (init (Shape.Idx.first hu)) (fun j => x (ix2 r j)) := by
  rw [Host.reduce_eq_fold_single FloatOps.maximumf x init h' h hu (ix1 r)]
  show (Finset.univ : Finset (Fin b)).fold max (init (Shape.Idx.first hu)) (fun j => x (h.lift (ix1 r) j)) = _
  exact Finset.fold_congr fun j _ => congrArg x (lift_last h r j)

/-- The host's sum over the last axis at row `r`: the initial value plus the row's sum. -/
theorem hsum_last {a b : ℕ} {u : Shape} (x : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (r : Fin a) :
    Host.reduceAdd x init h' hu (ix1 r) = init (Shape.Idx.first hu) + ∑ j : Fin b, x (ix2 r j) := by
  rw [hostReduceAdd_apply, Ideal.hostReduceAdd_single h' h]
  exact congrArg _ (Finset.sum_congr rfl fun j _ => congrArg x (lift_last h r j))

end Cert.HostLayers

end
-- ==== Proof.Bridge.lean ====
/-
  The algebra joining the kernel's arrangement of the dense stages to the reference's, generic in the extents.

  • A product with two weight arrays joined along the columns, cut back into its left or right columns, is the product
    with the left or the right weight array (`prod_join_left`, `prod_join_right`): column `c` of a product reads column `c` of
    the right operand only.
  • Two products with the top and the bottom rows of one weight array, added, are the product of the two left operands
    joined along the columns with the whole weight array (`combine_eq_prod_join`): the contraction's sum over `H + H` terms
    splits into its first `H` and its last `H`.
  • The host's spellings — `dot_general`, the bias vector broadcast to a row and over the rows, the rectifier as a maximum
    with a broadcast zero, the log-softmax chain — are the same whole-array functions (`hprod`, `hhidden`, `haddRow`,
    `hlsm`).
  Sums are split or compared term by term; nothing needs an entry to be finite.
-/
import proofs.«131783_j75625784148568_1_alg».proof.Proof.DenseSpec
import proofs.«131783_j75625784148568_1_alg».proof.Proof.HostLayers
import Idealize.ShloMosaic.Lib.ValueLayout

noncomputable section

open scoped BigOperators

namespace Cert.Bridge

open Idealize.ShloMosaic Idealize.ShloMosaic.ValueIdx Cert.Dense Cert.DenseRow Cert.HostLayers
open Cert.KernelIdeal.RegionValue (prodArr prodArr_apply)

/-- The host's `dot_general` over the plain record is the product. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- The left columns of a product with joined weights. -/
theorem prod_join_left {R K A B C : ℕ} (hC : C = A + B) (x : (⟨2, ![R, K]⟩ : Shape).Idx → EReal)
    (w₁ : (⟨2, ![K, A]⟩ : Shape).Idx → EReal) (w₂ : (⟨2, ![K, B]⟩ : Shape).Idx → EReal)
    (hj : Shape.Concatenates [(⟨2, ![K, A]⟩ : Shape), ⟨2, ![K, B]⟩] ⟨2, ![K, C]⟩ (1 : Fin 2))
    (hs : (⟨2, ![R, C]⟩ : Shape).Slices ![0, 0] ⟨2, ![R, A]⟩) :
    extractStridedSlice ⟨2, ![R, A]⟩ ![0, 0] (prodArr x (concatenate ⟨2, ![K, C]⟩ (1 : Fin 2) [⟨⟨2, ![K, A]⟩, w₁⟩, ⟨⟨2, ![K, B]⟩, w₂⟩] hj)) hs
      = prodArr x w₁ := by
  funext i
  obtain ⟨p, c, rfl⟩ : ∃ (p : Fin R) (c : Fin A), i = ix2 p c := ⟨i 0, i 1, eq_ix2 i⟩
  have hc := c.isLt
  rw [slice2_axis1_apply 0 _ hs p c ⟨c.val, by omega⟩ (by simp), prodArr_apply, prodArr_apply]
  refine Finset.sum_congr rfl fun k _ => ?_
  rw [concat_cols_apply hC w₁ w₂ hj k ⟨c.val, by omega⟩]
  unfold cat
  rw [dif_pos (show (⟨c.val, by omega⟩ : Fin C).val < A from hc)]

/-- The right columns of a product with joined weights. -/
theorem prod_join_right {R K A B C : ℕ} (hC : C = A + B) (x : (⟨2, ![R, K]⟩ : Shape).Idx → EReal)
    (w₁ : (⟨2, ![K, A]⟩ : Shape).Idx → EReal) (w₂ : (⟨2, ![K, B]⟩ : Shape).Idx → EReal)
    (hj : Shape.Concatenates [(⟨2, ![K, A]⟩ : Shape), ⟨2, ![K, B]⟩] ⟨2, ![K, C]⟩ (1 : Fin 2))
    (hs : (⟨2, ![R, C]⟩ : Shape).Slices ![0, A] ⟨2, ![R, B]⟩) :
    extractStridedSlice ⟨2, ![R, B]⟩ ![0, A] (prodArr x (concatenate ⟨2, ![K, C]⟩ (1 : Fin 2) [⟨⟨2, ![K, A]⟩, w₁⟩, ⟨⟨2, ![K, B]⟩, w₂⟩] hj)) hs
      = prodArr x w₂ := by
  funext i
  obtain ⟨p, c, rfl⟩ : ∃ (p : Fin R) (c : Fin B), i = ix2 p c := ⟨i 0, i 1, eq_ix2 i⟩
  have hc := c.isLt
  rw [slice2_axis1_apply A _ hs p c ⟨A + c.val, by omega⟩ rfl, prodArr_apply, prodArr_apply]
  refine Finset.sum_congr rfl fun k _ => ?_
  rw [concat_cols_apply hC w₁ w₂ hj k ⟨A + c.val, by omega⟩]
  unfold cat
  rw [dif_neg (show ¬ (⟨A + c.val, by omega⟩ : Fin C).val < A from by simp)]
  exact congrArg _ (congrArg _ (congrArg (ix2 k) (Fin.ext (by simp))))

/-- Two half products added are the product of the joined left operands with the whole weights. -/
theorem combine_eq_prod_join {R H C : ℕ} (z : EReal) (a₁ a₂ : (⟨2, ![R, H]⟩ : Shape).Idx → EReal)
    (b₁ b₂ : (⟨2, ![1, H]⟩ : Shape).Idx → EReal) (W : (⟨2, ![H + H, C]⟩ : Shape).Idx → EReal)
    (w₁ w₂ : (⟨2, ![H, C]⟩ : Shape).Idx → EReal)
    (hw₁ : ∀ (k : Fin H) (c : Fin C), w₁ (ix2 k c) = W (ix2 (Fin.castAdd H k) c))
    (hw₂ : ∀ (k : Fin H) (c : Fin C), w₂ (ix2 k c) = W (ix2 (Fin.natAdd H k) c)) :
    combineArr z a₁ a₂ b₁ b₂ w₁ w₂ = prodArr (catArr (rfl : H + H = H + H) (hiddenArr z a₁ b₁) (hiddenArr z a₂ b₂)) W := by
  funext i
  obtain ⟨p, c, rfl⟩ : ∃ (p : Fin R) (c : Fin C), i = ix2 p c := ⟨i 0, i 1, eq_ix2 i⟩
  show prodArr (hiddenArr z a₁ b₁) w₁ (ix2 p c) + prodArr (hiddenArr z a₂ b₂) w₂ (ix2 p c) = _
  rw [prodArr_apply, prodArr_apply, prodArr_apply, sum_halves]
  refine congrArg₂ (· + ·) (Finset.sum_congr rfl fun k _ => ?_) (Finset.sum_congr rfl fun k _ => ?_)
  · rw [catArr_apply, hw₁]
    unfold cat
    rw [dif_pos (show (Fin.castAdd H k).val < H from k.isLt)]
    rfl
  · rw [catArr_apply, hw₂]
    unfold cat
    rw [dif_neg (show ¬ (Fin.natAdd H k).val < H from by simp)]
    refine congrArg (· * _) ?_
    show hiddenArr z a₂ b₂ (ix2 p k) = hiddenArr z a₂ b₂ (ix2 p ⟨(Fin.natAdd H k).val - H, _⟩)
    exact congrArg _ (congrArg (ix2 p) (Fin.ext (by simp)))

/-- The host's biased, rectified layer is `hiddenArr` with the bias as the cast one-row array. -/
theorem hhidden {R N : ℕ} (a : FVec Ideal ⟨2, ![R, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (hz : (⟨0, ![]⟩ : Shape).BroadcastsInDim ⟨2, ![R, N]⟩ ![]) (hc : (⟨1, ![N]⟩ : Shape).ShapeCasts ⟨2, ![1, N]⟩) :
    maximumf (addf a (broadcastInDim ⟨2, ![R, N]⟩ ![0, 1] h2 (broadcastInDim ⟨2, ![1, N]⟩ ![1] h1 b)))
        (broadcastInDim ⟨2, ![R, N]⟩ ![] hz (constant (F := Ideal) ⟨0, ![]⟩ .f32 0x00000000#32))
      = hiddenArr (Ideal.ofBits .f32 0x00000000#32) a (shapeCast ⟨2, ![1, N]⟩ b hc) := by
  funext i
  obtain ⟨p, c, rfl⟩ : ∃ (p : Fin R) (c : Fin N), i = ix2 p c := ⟨i 0, i 1, eq_ix2 i⟩
  show max ((a (ix2 p c) : EReal) + broadcastInDim ⟨2, ![R, N]⟩ ![0, 1] h2 (broadcastInDim ⟨2, ![1, N]⟩ ![1] h1 b) (ix2 p c))
      (broadcastInDim ⟨2, ![R, N]⟩ ![] hz (constant (F := Ideal) ⟨0, ![]⟩ .f32 0x00000000#32) (ix2 p c)) = _
  rw [rows_of_row_apply, row_of_vec_apply, broadcastInDim_scalar_apply, hiddenArr_apply, shapeCast_a_1a_apply]
  rfl

/-- The host's bias broadcast over the rows and added is `addRow` with the bias as the cast one-row array. -/
theorem haddRow {R N : ℕ} (a : FVec Ideal ⟨2, ![R, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (hc : (⟨1, ![N]⟩ : Shape).ShapeCasts ⟨2, ![1, N]⟩) :
    addf a (broadcastInDim ⟨2, ![R, N]⟩ ![0, 1] h2 (broadcastInDim ⟨2, ![1, N]⟩ ![1] h1 b)) = addRow a (shapeCast ⟨2, ![1, N]⟩ b hc) := by
  funext i
  obtain ⟨p, c, rfl⟩ : ∃ (p : Fin R) (c : Fin N), i = ix2 p c := ⟨i 0, i 1, eq_ix2 i⟩
  show (a (ix2 p c) : EReal) + broadcastInDim ⟨2, ![R, N]⟩ ![0, 1] h2 (broadcastInDim ⟨2, ![1, N]⟩ ![1] h1 b) (ix2 p c) = _
  rw [rows_of_row_apply, row_of_vec_apply, addRow_apply, shapeCast_a_1a_apply]

/-- The host's log-softmax chain is `lsmArr`. -/
theorem hlsm {R C : ℕ} (y : FVec Ideal ⟨2, ![R, C]⟩ .f32)
    (hr' : Shape.ReducesTo ⟨2, ![R, C]⟩ [1] ⟨1, ![R]⟩) (hr : Shape.Reduces ⟨2, ![R, C]⟩ [1] ⟨1, ![R]⟩) (hu : 0 < (⟨0, ![]⟩ : Shape).numel)
    (hs : (⟨0, ![]⟩ : Shape).BroadcastsInDim ⟨1, ![R]⟩ ![]) (hcol : (⟨1, ![R]⟩ : Shape).BroadcastsInDim ⟨2, ![R, 1]⟩ ![0])
    (hover : (⟨2, ![R, 1]⟩ : Shape).BroadcastsInDim ⟨2, ![R, C]⟩ ![0, 1]) :
    subf
        (subf y (broadcastInDim ⟨2, ![R, C]⟩ ![0, 1] hover (broadcastInDim ⟨2, ![R, 1]⟩ ![0] hcol
          (maximumf (broadcastInDim ⟨1, ![R]⟩ ![] hs (constant (F := Ideal) ⟨0, ![]⟩ .f32 0xFF800000#32))
            (Host.reduce FloatOps.maximumf y (constant (F := Ideal) ⟨0, ![]⟩ .f32 0xFF800000#32) hr' hu)))))
        (broadcastInDim ⟨2, ![R, C]⟩ ![0, 1] hover (Host.log (broadcastInDim ⟨2, ![R, 1]⟩ ![0] hcol
          (Host.reduceAdd (Host.exp (subf y (broadcastInDim ⟨2, ![R, C]⟩ ![0, 1] hover (broadcastInDim ⟨2, ![R, 1]⟩ ![0] hcol
            (maximumf (broadcastInDim ⟨1, ![R]⟩ ![] hs (constant (F := Ideal) ⟨0, ![]⟩ .f32 0xFF800000#32))
              (Host.reduce FloatOps.maximumf y (constant (F := Ideal) ⟨0, ![]⟩ .f32 0xFF800000#32) hr' hu))))))
            (constant (F := Ideal) ⟨0, ![]⟩ .f32 0x00000000#32) hr' hu))))
      = lsmArr (Ideal.ofBits .f32 0xFF800000#32) y := by
  have hM : ∀ r : Fin R, (maximumf (broadcastInDim ⟨1, ![R]⟩ ![] hs (constant (F := Ideal) ⟨0, ![]⟩ .f32 0xFF800000#32))
      (Host.reduce FloatOps.maximumf y (constant (F := Ideal) ⟨0, ![]⟩ .f32 0xFF800000#32) hr' hu) (ix1 r) : EReal)
        = rowMax (Ideal.ofBits .f32 0xFF800000#32) y r := by
    intro r
    show max (broadcastInDim ⟨1, ![R]⟩ ![] hs (constant (F := Ideal) ⟨0, ![]⟩ .f32 0xFF800000#32) (ix1 r))
      (Host.reduce FloatOps.maximumf y (constant (F := Ideal) ⟨0, ![]⟩ .f32 0xFF800000#32) hr' hu (ix1 r)) = _
    rw [broadcastInDim_scalar_apply, hmax_last y _ hr' hr hu r]
    rfl
  have hD : ∀ (r : Fin R) (j : Fin C), (subf y (broadcastInDim ⟨2, ![R, C]⟩ ![0, 1] hover (broadcastInDim ⟨2, ![R, 1]⟩ ![0] hcol
      (maximumf (broadcastInDim ⟨1, ![R]⟩ ![] hs (constant (F := Ideal) ⟨0, ![]⟩ .f32 0xFF800000#32))
        (Host.reduce FloatOps.maximumf y (constant (F := Ideal) ⟨0, ![]⟩ .f32 0xFF800000#32) hr' hu)))) (ix2 r j) : EReal)
        = y (ix2 r j) - rowMax (Ideal.ofBits .f32 0xFF800000#32) y r := by
    intro r j
    show (y (ix2 r j) : EReal) - broadcastInDim (s := ⟨2, ![R, 1]⟩) ⟨2, ![R, C]⟩ ![0, 1] hover _ (ix2 r j) = _
    rw [cols_of_col_apply, col_of_vec_apply, hM]
  funext i
  obtain ⟨p, c, rfl⟩ : ∃ (p : Fin R) (c : Fin C), i = ix2 p c := ⟨i 0, i 1, eq_ix2 i⟩
  show (subf y _ (ix2 p c) : EReal) - broadcastInDim (s := ⟨2, ![R, 1]⟩) ⟨2, ![R, C]⟩ ![0, 1] hover _ (ix2 p c) = _
  rw [cols_of_col_apply, hD, lsmArr_apply]
  refine congrArg _ ?_
  show Ideal.log (broadcastInDim (s := ⟨1, ![R]⟩) ⟨2, ![R, 1]⟩ ![0] hcol _ (ix2 p (0 : Fin 1))) = _
  rw [col_of_vec_apply, hsum_last _ _ hr' hr hu p]
  show Ideal.log (Ideal.ofBits .f32 0x00000000#32 + _) = _
  rw [Ideal.ofBits_zero_f32, zero_add]
  refine congrArg Ideal.log (Finset.sum_congr rfl fun j _ => ?_)
  show Ideal.exp (subf y _ (ix2 p j)) = _
  rw [hD]

end Cert.Bridge

end
-- ==== Proof.Equiv.lean ====
/-
  The two results are one function of the arguments.

  Both programs end with the log-softmax of the rows of `Â_e H + b4`, `Â_e` the first edge list's aggregation, and differ
  only in how they reach the array `H` [100000, 10]:
  • the reference multiplies `[x₁ | x₂]` by `W4`, with `xᵢ = relu (Âᵢ (x · Wᵢ) + bᵢ)`;
  • the kernel multiplies `x` once by `[W1 | W2]` and cuts the product into its left and right columns, which are `x · W1` and
    `x · W2`; then adds `x₁` times the top rows of `W4` to `x₂` times its bottom rows, which is the one product above because the
    contraction's sum over 32 terms is the sum of its first 16 plus the sum of its last 16.
  The aggregations are the same opaque functions on both sides and are applied to equal arrays.  No step needs an entry
  to be finite.
-/
import proofs.«131783_j75625784148568_1_alg».proof.Proof.KernelValue
import proofs.«131783_j75625784148568_1_alg».proof.Proof.RefSpec
import proofs.«131783_j75625784148568_1_alg».proof.Proof.Bridge

set_option maxRecDepth 16384

noncomputable section

namespace Cert.Equiv

open Idealize.ShloMosaic Idealize.ShloMosaic.TcCoe Idealize.ShloMosaic.ValueIdx Idealize.SL.Sem
open Cert.Dense Cert.DenseRow Cert.Bridge Cert.Graph
open Cert.KernelIdeal.RegionValue (prodArr prodArr_apply)

/-- The reference's first product is the plain product. -/
theorem ref_dot16 (x : FVec Ideal ⟨2, ![100000, 128]⟩ .f32) (w : FVec Ideal ⟨2, ![128, 16]⟩ .f32) :
    Host.dotGeneral (F := Ideal) (φ₁ := .f32) (φ₂ := .f32) Cert.ReferenceIdeal.dot_S100000x128_S128x16_S100000x16_1_0_0_1_n_n none x w = prodArr x w :=
  hprod (R := 100000) (K := 128) (N := 16) none x w

/-- The reference's last product is the plain product. -/
theorem ref_dot32 (h : FVec Ideal ⟨2, ![100000, 32]⟩ .f32) (w : FVec Ideal ⟨2, ![32, 10]⟩ .f32) :
    Host.dotGeneral (F := Ideal) (φ₁ := .f32) (φ₂ := .f32) Cert.ReferenceIdeal.dot_S100000x32_S32x10_S100000x10_1_0_0_1_n_n none h w = prodArr h w :=
  hprod (R := 100000) (K := 32) (N := 10) none h w

/-- The first edge list's aggregation of the left columns of `x · [W1 | W2]` is the reference's first convolution. -/
theorem convL (m : (ℓ : Loc Cert.KernelIdeal.nD Cert.KernelIdeal.τ Cert.KernelIdeal.sig) → Buf (Elt Ideal) ℓ) (c : Dev Cert.KernelIdeal.nD) : (agg16 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32))) (extractStridedSlice Cert.KernelIdeal.S100000x16 ![0, 0] (Cert.KernelIdeal.Hand.xw m c) Cert.KernelIdeal.Gen.slices_S100000x32_S100000x16_0_0)) = (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))) := by
  have hL : (extractStridedSlice Cert.KernelIdeal.S100000x16 ![0, 0] (Cert.KernelIdeal.Hand.xw m c) Cert.KernelIdeal.Gen.slices_S100000x32_S100000x16_0_0) = Host.dotGeneral (F := Ideal) (φ₁ := .f32) (φ₂ := .f32) Cert.ReferenceIdeal.dot_S100000x128_S128x16_S100000x16_1_0_0_1_n_n none (m ((c : Thread Cert.KernelIdeal.nD Cert.KernelIdeal.τ).loc Cert.KernelIdeal.main_arg0)) (m ((c : Thread Cert.KernelIdeal.nD Cert.KernelIdeal.τ).loc Cert.KernelIdeal.main_arg3)) := by
    rw [ref_dot16]
    exact prod_join_left (R := 100000) (K := 128) (A := 16) (B := 16) (C := 32) rfl _ _ _ _ _
  rw [hL]
  rfl

/-- The second edge list's aggregation of the right columns of `x · [W1 | W2]` is the reference's second convolution. -/
theorem convR (m : (ℓ : Loc Cert.KernelIdeal.nD Cert.KernelIdeal.τ Cert.KernelIdeal.sig) → Buf (Elt Ideal) ℓ) (c : Dev Cert.KernelIdeal.nD) : (agg16 (ends0 (m ((c : Thread Cert.KernelIdeal.nD Cert.KernelIdeal.τ).loc Cert.KernelIdeal.main_arg2))) (ends1 (m ((c : Thread Cert.KernelIdeal.nD Cert.KernelIdeal.τ).loc Cert.KernelIdeal.main_arg2))) (norm (ends0 (m ((c : Thread Cert.KernelIdeal.nD Cert.KernelIdeal.τ).loc Cert.KernelIdeal.main_arg2))) (ends1 (m ((c : Thread Cert.KernelIdeal.nD Cert.KernelIdeal.τ).loc Cert.KernelIdeal.main_arg2))) (broadcastInDim Cert.KernelIdeal.S100000 ![] Cert.KernelIdeal.Gen.bcast_S_S100000 (constant (F := Ideal) Cert.KernelIdeal.S_ .f32 0x00000000#32))) (extractStridedSlice Cert.KernelIdeal.S100000x16 ![0, 16] (Cert.KernelIdeal.Hand.xw m c) Cert.KernelIdeal.Gen.slices_S100000x32_S100000x16_0_16)) = (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5))) := by
  have hR : (extractStridedSlice Cert.KernelIdeal.S100000x16 ![0, 16] (Cert.KernelIdeal.Hand.xw m c) Cert.KernelIdeal.Gen.slices_S100000x32_S100000x16_0_16) = Host.dotGeneral (F := Ideal) (φ₁ := .f32) (φ₂ := .f32) Cert.ReferenceIdeal.dot_S100000x128_S128x16_S100000x16_1_0_0_1_n_n none (m ((c : Thread Cert.KernelIdeal.nD Cert.KernelIdeal.τ).loc Cert.KernelIdeal.main_arg0)) (m ((c : Thread Cert.KernelIdeal.nD Cert.KernelIdeal.τ).loc Cert.KernelIdeal.main_arg5)) := by
    rw [ref_dot16]
    exact prod_join_right (R := 100000) (K := 128) (A := 16) (B := 16) (C := 32) rfl _ _ _ _ _
  rw [hR]
  rfl

/-- Two half products of rectified arrays are the host's one product of the joined arrays, for any two arrays. -/
theorem halves (A₁ A₂ : FVec Ideal ⟨2, ![100000, 16]⟩ .f32) (m : (ℓ : Loc Cert.KernelIdeal.nD Cert.KernelIdeal.τ Cert.KernelIdeal.sig) → Buf (Elt Ideal) ℓ) (c : Dev Cert.KernelIdeal.nD) :
    combineArr (Ideal.ofBits .f32 0x00000000#32) A₁ A₂ (shapeCast Cert.KernelIdeal.S1x16 (m ((c : Thread Cert.KernelIdeal.nD Cert.KernelIdeal.τ).loc Cert.KernelIdeal.main_arg4)) Cert.KernelIdeal.Gen.shapeCasts_S16_S1x16) (shapeCast Cert.KernelIdeal.S1x16 (m ((c : Thread Cert.KernelIdeal.nD Cert.KernelIdeal.τ).loc Cert.KernelIdeal.main_arg6)) Cert.KernelIdeal.Gen.shapeCasts_S16_S1x16) (extractStridedSlice Cert.KernelIdeal.S16x10 ![0, 0] (m ((c : Thread Cert.KernelIdeal.nD Cert.KernelIdeal.τ).loc Cert.KernelIdeal.main_arg7)) Cert.KernelIdeal.Gen.slices_S32x10_S16x10_0_0) (extractStridedSlice Cert.KernelIdeal.S16x10 ![16, 0] (m ((c : Thread Cert.KernelIdeal.nD Cert.KernelIdeal.τ).loc Cert.KernelIdeal.main_arg7)) Cert.KernelIdeal.Gen.slices_S32x10_S16x10_16_0)
      = Host.dotGeneral (F := Ideal) (φ₁ := .f32) (φ₂ := .f32) Cert.ReferenceIdeal.dot_S100000x32_S32x10_S100000x10_1_0_0_1_n_n none
          (Cert.ReferenceIdeal.Hand.joinF (F := Ideal) (Cert.ReferenceIdeal.Hand.relu16 A₁ (m ((c : Thread Cert.KernelIdeal.nD Cert.KernelIdeal.τ).loc Cert.KernelIdeal.main_arg4))) (Cert.ReferenceIdeal.Hand.relu16 A₂ (m ((c : Thread Cert.KernelIdeal.nD Cert.KernelIdeal.τ).loc Cert.KernelIdeal.main_arg6)))) (m ((c : Thread Cert.KernelIdeal.nD Cert.KernelIdeal.τ).loc Cert.KernelIdeal.main_arg7)) := by
  have e₁ : Cert.ReferenceIdeal.Hand.relu16 (F := Ideal) A₁ (m ((c : Thread Cert.KernelIdeal.nD Cert.KernelIdeal.τ).loc Cert.KernelIdeal.main_arg4)) = hiddenArr (Ideal.ofBits .f32 0x00000000#32) A₁ (shapeCast Cert.KernelIdeal.S1x16 (m ((c : Thread Cert.KernelIdeal.nD Cert.KernelIdeal.τ).loc Cert.KernelIdeal.main_arg4)) Cert.KernelIdeal.Gen.shapeCasts_S16_S1x16) :=
    hhidden (R := 100000) (N := 16) A₁ (m ((c : Thread Cert.KernelIdeal.nD Cert.KernelIdeal.τ).loc Cert.KernelIdeal.main_arg4)) _ _ _ _
  have e₂ : Cert.ReferenceIdeal.Hand.relu16 (F := Ideal) A₂ (m ((c : Thread Cert.KernelIdeal.nD Cert.KernelIdeal.τ).loc Cert.KernelIdeal.main_arg6)) = hiddenArr (Ideal.ofBits .f32 0x00000000#32) A₂ (shapeCast Cert.KernelIdeal.S1x16 (m ((c : Thread Cert.KernelIdeal.nD Cert.KernelIdeal.τ).loc Cert.KernelIdeal.main_arg6)) Cert.KernelIdeal.Gen.shapeCasts_S16_S1x16) :=
    hhidden (R := 100000) (N := 16) A₂ (m ((c : Thread Cert.KernelIdeal.nD Cert.KernelIdeal.τ).loc Cert.KernelIdeal.main_arg6)) _ _ _ _
  have ej : ∀ h₁ h₂ : FVec Ideal ⟨2, ![100000, 16]⟩ .f32, Cert.ReferenceIdeal.Hand.joinF (F := Ideal) h₁ h₂ = catArr (rfl : 16 + 16 = 16 + 16) h₁ h₂ :=
    fun h₁ h₂ => concatArr (R := 100000) (A := 16) (B := 16) (C := 16 + 16) rfl h₁ h₂ _
  rw [e₁, e₂, ej, ref_dot32]
  refine combine_eq_prod_join (R := 100000) (H := 16) (C := 10) _ A₁ A₂ _ _ (m ((c : Thread Cert.KernelIdeal.nD Cert.KernelIdeal.τ).loc Cert.KernelIdeal.main_arg7)) _ _ (fun k c' => ?_) (fun k c' => ?_)
  · exact slice2_axis0_apply 0 _ _ k c' (Fin.castAdd 16 k) (by simp)
  · exact slice2_axis0_apply 16 _ _ k c' (Fin.natAdd 16 k) rfl

/-- The hidden array `[x₁ | x₂] · W4` as the kernel computes it is the reference's. -/
theorem hid_eq (m : (ℓ : Loc Cert.KernelIdeal.nD Cert.KernelIdeal.τ Cert.KernelIdeal.sig) → Buf (Elt Ideal) ℓ) (c : Dev Cert.KernelIdeal.nD) :
    Cert.KernelIdeal.Hand.hid m c
      = Host.dotGeneral (F := Ideal) (φ₁ := .f32) (φ₂ := .f32) Cert.ReferenceIdeal.dot_S100000x32_S32x10_S100000x10_1_0_0_1_n_n none
          (Cert.ReferenceIdeal.Hand.joinF (F := Ideal) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))) (m ((c : Thread Cert.KernelIdeal.nD Cert.KernelIdeal.τ).loc Cert.KernelIdeal.main_arg4))) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5))) (m ((c : Thread Cert.KernelIdeal.nD Cert.KernelIdeal.τ).loc Cert.KernelIdeal.main_arg6)))) (m ((c : Thread Cert.KernelIdeal.nD Cert.KernelIdeal.τ).loc Cert.KernelIdeal.main_arg7)) := by
  show combineArr (Ideal.ofBits .f32 0x00000000#32) (agg16 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32))) (extractStridedSlice Cert.KernelIdeal.S100000x16 ![0, 0] (Cert.KernelIdeal.Hand.xw m c) Cert.KernelIdeal.Gen.slices_S100000x32_S100000x16_0_0)) (agg16 (ends0 (m ((c : Thread Cert.KernelIdeal.nD Cert.KernelIdeal.τ).loc Cert.KernelIdeal.main_arg2))) (ends1 (m ((c : Thread Cert.KernelIdeal.nD Cert.KernelIdeal.τ).loc Cert.KernelIdeal.main_arg2))) (norm (ends0 (m ((c : Thread Cert.KernelIdeal.nD Cert.KernelIdeal.τ).loc Cert.KernelIdeal.main_arg2))) (ends1 (m ((c : Thread Cert.KernelIdeal.nD Cert.KernelIdeal.τ).loc Cert.KernelIdeal.main_arg2))) (broadcastInDim Cert.KernelIdeal.S100000 ![] Cert.KernelIdeal.Gen.bcast_S_S100000 (constant (F := Ideal) Cert.KernelIdeal.S_ .f32 0x00000000#32))) (extractStridedSlice Cert.KernelIdeal.S100000x16 ![0, 16] (Cert.KernelIdeal.Hand.xw m c) Cert.KernelIdeal.Gen.slices_S100000x32_S100000x16_0_16)) (shapeCast Cert.KernelIdeal.S1x16 (m ((c : Thread Cert.KernelIdeal.nD Cert.KernelIdeal.τ).loc Cert.KernelIdeal.main_arg4)) Cert.KernelIdeal.Gen.shapeCasts_S16_S1x16) (shapeCast Cert.KernelIdeal.S1x16 (m ((c : Thread Cert.KernelIdeal.nD Cert.KernelIdeal.τ).loc Cert.KernelIdeal.main_arg6)) Cert.KernelIdeal.Gen.shapeCasts_S16_S1x16) (extractStridedSlice Cert.KernelIdeal.S16x10 ![0, 0] (m ((c : Thread Cert.KernelIdeal.nD Cert.KernelIdeal.τ).loc Cert.KernelIdeal.main_arg7)) Cert.KernelIdeal.Gen.slices_S32x10_S16x10_0_0) (extractStridedSlice Cert.KernelIdeal.S16x10 ![16, 0] (m ((c : Thread Cert.KernelIdeal.nD Cert.KernelIdeal.τ).loc Cert.KernelIdeal.main_arg7)) Cert.KernelIdeal.Gen.slices_S32x10_S16x10_16_0) = _
  rw [convL, convR]
  exact halves _ _ m c

/-- The kernel's result is the reference's, at the kernel's arguments. -/
theorem out_eq (m : (ℓ : Loc Cert.KernelIdeal.nD Cert.KernelIdeal.τ Cert.KernelIdeal.sig) → Buf (Elt Ideal) ℓ) (c : Dev Cert.KernelIdeal.nD) :
    Cert.KernelIdeal.Hand.out m c
      = Cert.ReferenceIdeal.Hand.out (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) := by
  show lsmArr (Ideal.ofBits .f32 0xFF800000#32) (addRow
        (agg10 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32))) (Cert.KernelIdeal.Hand.hid m c))
        (shapeCast Cert.KernelIdeal.S1x10 (m ((c : Thread Cert.KernelIdeal.nD Cert.KernelIdeal.τ).loc Cert.KernelIdeal.main_arg8)) Cert.KernelIdeal.Gen.shapeCasts_S10_S1x10)) = _
  rw [hid_eq]
  show lsmArr (Ideal.ofBits .f32 0xFF800000#32) (addRow (agg10 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32)))
      (Host.dotGeneral (F := Ideal) (φ₁ := .f32) (φ₂ := .f32) Cert.ReferenceIdeal.dot_S100000x32_S32x10_S100000x10_1_0_0_1_n_n none
        (Cert.ReferenceIdeal.Hand.joinF (F := Ideal) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))) (m ((c : Thread Cert.KernelIdeal.nD Cert.KernelIdeal.τ).loc Cert.KernelIdeal.main_arg4))) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5))) (m ((c : Thread Cert.KernelIdeal.nD Cert.KernelIdeal.τ).loc Cert.KernelIdeal.main_arg6)))) (m ((c : Thread Cert.KernelIdeal.nD Cert.KernelIdeal.τ).loc Cert.KernelIdeal.main_arg7))))
        (shapeCast Cert.KernelIdeal.S1x10 (m ((c : Thread Cert.KernelIdeal.nD Cert.KernelIdeal.τ).loc Cert.KernelIdeal.main_arg8)) Cert.KernelIdeal.Gen.shapeCasts_S10_S1x10))
      = Cert.ReferenceIdeal.Hand.hostLsm (F := Ideal) (addf (agg10 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32)))
      (Host.dotGeneral (F := Ideal) (φ₁ := .f32) (φ₂ := .f32) Cert.ReferenceIdeal.dot_S100000x32_S32x10_S100000x10_1_0_0_1_n_n none
        (Cert.ReferenceIdeal.Hand.joinF (F := Ideal) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))) (m ((c : Thread Cert.KernelIdeal.nD Cert.KernelIdeal.τ).loc Cert.KernelIdeal.main_arg4))) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5))) (m ((c : Thread Cert.KernelIdeal.nD Cert.KernelIdeal.τ).loc Cert.KernelIdeal.main_arg6)))) (m ((c : Thread Cert.KernelIdeal.nD Cert.KernelIdeal.τ).loc Cert.KernelIdeal.main_arg7))))
          (broadcastInDim Cert.ReferenceIdeal.S100000x10 ![0, 1] Cert.ReferenceIdeal.Gen.bcast_S1x10_S100000x10_0_1
            (broadcastInDim Cert.ReferenceIdeal.S1x10 ![1] Cert.ReferenceIdeal.Gen.bcast_S10_S1x10_1 (m ((c : Thread Cert.KernelIdeal.nD Cert.KernelIdeal.τ).loc Cert.KernelIdeal.main_arg8)))))
  generalize (agg10 (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (norm (ends0 (m ((c : Thread Cert.KernelIdeal.nD Cert.KernelIdeal.τ).loc Cert.KernelIdeal.main_arg1))) (ends1 (m ((c : Thread Cert.KernelIdeal.nD Cert.KernelIdeal.τ).loc Cert.KernelIdeal.main_arg1))) (broadcastInDim Cert.KernelIdeal.S100000 ![] Cert.KernelIdeal.Gen.bcast_S_S100000 (constant (F := Ideal) Cert.KernelIdeal.S_ .f32 0x00000000#32)))
      (Host.dotGeneral (F := Ideal) (φ₁ := .f32) (φ₂ := .f32) Cert.ReferenceIdeal.dot_S100000x32_S32x10_S100000x10_1_0_0_1_n_n none
        (Cert.ReferenceIdeal.Hand.joinF (F := Ideal) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3))) (m ((c : Thread Cert.KernelIdeal.nD Cert.KernelIdeal.τ).loc Cert.KernelIdeal.main_arg4))) (Cert.ReferenceIdeal.Hand.relu16 (Cert.ReferenceIdeal.Hand.conv16 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg5))) (m ((c : Thread Cert.KernelIdeal.nD Cert.KernelIdeal.τ).loc Cert.KernelIdeal.main_arg6)))) (m ((c : Thread Cert.KernelIdeal.nD Cert.KernelIdeal.τ).loc Cert.KernelIdeal.main_arg7)))) = G
  refine ((hlsm (R := 100000) (C := 10) _ Cert.ReferenceIdeal.Gen.reducesTo_S100000x10_S100000_d1 (by decide) Cert.ReferenceIdeal.Gen.h_S_ _ _ _).trans ?_).symm
  exact congrArg _ (haddRow (R := 100000) (N := 10) G (m ((c : Thread Cert.KernelIdeal.nD Cert.KernelIdeal.τ).loc Cert.KernelIdeal.main_arg8)) _ _ _)

end Cert.Equiv

end
-- ==== Proof.lean ====
/-
  The certificate's five claims.

  The kernel computes a three-layer graph network in three tiled regions — `x · [W1 | W2]`; bias, rectifier and the two
  half products with `W4`; bias and log-softmax — with the graph aggregations between them on the host; the reference
  computes the same network layer by layer.  At the ideal values:
  • the two frames of the kernel are the generated frame certificates, and the reference's frame is its run with the
    result dropped;
  • the ideal pass rewrote nothing, so `preserves` has nothing to state;
  • `algebraic`: the kernel's run ends with its result at `Cert.KernelIdeal.Hand.out` (KernelValue), the reference's at
    `Cert.ReferenceIdeal.Hand.out` of its own arguments (RefValue), the arguments agree, and the two functions are one
    (Equiv: column halves of a product with joined weights, a contraction's sum split into its two halves, and the same
    graph aggregations applied to equal arrays).  The precondition is not used: no step needs an entry to be finite.
-/
import proofs.«131783_j75625784148568_1_alg».proof.Defs
import proofs.«131783_j75625784148568_1_alg».proof.Proof.Gen.Kernel
import proofs.«131783_j75625784148568_1_alg».proof.Proof.Gen.Kernel.Frame
import proofs.«131783_j75625784148568_1_alg».proof.Proof.Gen.KernelIdeal
import proofs.«131783_j75625784148568_1_alg».proof.Proof.Gen.KernelIdeal.Frame
import proofs.«131783_j75625784148568_1_alg».proof.Proof.Gen.ReferenceIdeal
import proofs.«131783_j75625784148568_1_alg».proof.Proof.Gen.Pre_finite_inputs
import proofs.«131783_j75625784148568_1_alg».proof.Proof.KernelValue
import proofs.«131783_j75625784148568_1_alg».proof.Proof.RefValue
import proofs.«131783_j75625784148568_1_alg».proof.Proof.Equiv
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The two runs end at one function of arguments that agree. -/
theorem algebraic : Cert.algebraic_KernelIdeal_ReferenceIdeal := by
  intro m ρ m' ρ' _ hagree
  refine ⟨fun c => Cert.KernelIdeal.Hand.out m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8⟩ := hagree c
  rw [h0, h1, h2, h3, h4, h5, h6, h7, h8]
  exact (Cert.Equiv.out_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
